-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S10000x128 .f32) (main_arg1 : FVec F S10000x10000 .f32) (main_arg2 : FVec F S128x128 .f32) (main_arg3 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S224x10000 : Shape := ⟨2, ![224, 10000]⟩
abbrev S224x128 : Shape := ⟨2, ![224, 128]⟩

abbrev nBuf : Space → Nat
  | .hbm => 6
  | .vmem => 8
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S1x128, .f32⟩
  | .hbm, ⟨5, _⟩ => ⟨S10000x128, .f32⟩
  | .local _ .vmem, ⟨0, _⟩ => ⟨S10000x128, .f32⟩
  | .local _ .vmem, ⟨1, _⟩ => ⟨S128x128, .f32⟩
  | .local _ .vmem, ⟨2, _⟩ => ⟨S224x10000, .f32⟩
  | .local _ .vmem, ⟨3, _⟩ => ⟨S224x10000, .f32⟩
  | .local _ .vmem, ⟨4, _⟩ => ⟨S1x128, .f32⟩
  | .local _ .vmem, ⟨5, _⟩ => ⟨S224x128, .f32⟩
  | .local _ .vmem, ⟨6, _⟩ => ⟨S224x128, .f32⟩
  | .local _ .vmem, ⟨7, _⟩ => ⟨S10000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![45], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S224x10000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S224x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  shapeCasts_S10000x128_S10000x128 : S10000x128.ShapeCasts S10000x128
  inb_S224x10000_S224x10000_0_0 : ∀ a, (![0, 0] : Fin 2 → Nat) a + S224x10000.size a ≤ S224x10000.size a
  h_S224x10000 : 0 < S224x10000.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S224x128 : S1x128.Broadcasts S224x128
  inb_S224x128_S224x128_0_0 : ∀ a, (![0, 0] : Fin 2 → Nat) a + S224x128.size a ≤ S224x128.size a
  h_S224x128 : 0 < S224x128.numel
  dot_S10000x128_S128x128_S10000x128_1_0_0_1_n_n_wf : DotDims.WF S10000x128 S128x128 S10000x128 [1] [0] [0] [1] [] []
  dot_S224x10000_S10000x128_S224x128_1_0_0_1_n_n_wf : DotDims.WF S224x10000 S10000x128 S224x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S224x10000.size a < S10000x10000.size a
  hwx0_2 : ∀ i : grid0.Coords, EltTy.bits .f32 = 32 ∨ (Rect.unit (s := S10000x10000) (fun a => cc0_transform_2 i a * S224x10000.size a) (fun a => (Pipeline.Clip.of (cc0_transform_2 i a) (S224x10000.size a) (S10000x10000.size a)).extent (S224x10000.size a)) fun a => Pipeline.Clip.inb (Pipeline.Clip.ok_of (hstart0_2 i a))).WholeWords (EltTy.packing .f32)
  hwxs0_2 : ∀ i : grid0.Coords, EltTy.bits .f32 = 32 ∨ (Rect.unit (s := S224x10000) (fun _ => 0) (fun a => (Pipeline.Clip.of (cc0_transform_2 i a) (S224x10000.size a) (S10000x10000.size a)).extent (S224x10000.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hstart0_4 : ∀ (i : grid0.Coords) a, cc0_transform_4 i a * S224x128.size a < S10000x128.size a
  hwx0_4 : ∀ i : grid0.Coords, EltTy.bits .f32 = 32 ∨ (Rect.unit (s := S10000x128) (fun a => cc0_transform_4 i a * S224x128.size a) (fun a => (Pipeline.Clip.of (cc0_transform_4 i a) (S224x128.size a) (S10000x128.size a)).extent (S224x128.size a)) fun a => Pipeline.Clip.inb (Pipeline.Clip.ok_of (hstart0_4 i a))).WholeWords (EltTy.packing .f32)
  hwxs0_4 : ∀ i : grid0.Coords, EltTy.bits .f32 = 32 ∨ (Rect.unit (s := S224x128) (fun _ => 0) (fun a => (Pipeline.Clip.of (cc0_transform_4 i a) (S224x128.size a) (S10000x128.size a)).extent (S224x128.size a)) fun a => (Nat.zero_add _).trans_le (Pipeline.Clip.extent_le (Pipeline.Clip.ok_of (hstart0_4 i a)))).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S224x10000_S10000x128_S224x128_1_0_0_1_n_n : DotDims S224x10000 S10000x128 S224x128 where
  lhsContracting := [1]
  rhsContracting := [0]
  lhsNonContracting := [0]
  rhsNonContracting := [1]
  lhsBatch := []
  rhsBatch := []
  wf := dot_S224x10000_S10000x128_S224x128_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpecClip (Memref.whole main_arg1) S224x10000.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpec (Memref.whole main_call0_v0) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpecClip (Memref.whole main_v0) S224x128.size cc0_transform_4 reads0_4 true false 2 stage0_4 sem0_4
    hrank0 hreads0_4 hstart0_4 nbuf0_4 (Memref.isWhole_whole _) hwx0_4 hwxs0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S10000x128, .f32⟩
  | .hbm, ⟨5, _⟩ => ⟨S10000x128, .f32⟩
  | .hbm, ⟨6, _⟩ => ⟨S1x128, .f32⟩
  | .hbm, ⟨7, _⟩ => ⟨S10000x128, .f32⟩
  | .hbm, ⟨8, _⟩ => ⟨S10000x128, .f32⟩
  | .hbm, ⟨9, _⟩ => ⟨S_, .f32⟩
  | .hbm, ⟨10, _⟩ => ⟨S10000x128, .f32⟩
  | .hbm, ⟨11, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_cst : Ref sig .tc := ⟨.hbm, 9, rfl⟩
abbrev main_call0_v0 : Ref sig .tc := ⟨.hbm, 10, rfl⟩
abbrev main_v5 : Ref sig .tc := ⟨.hbm, 11, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.BodyRunK.lean ====
/-
  The kernel body of the graph-convolution layer, run once at the first grid point and once at any later one.

  The body is handed six whole buffers: the features `x` (10000 × 128), the weight `W` (128 × 128), a block of 224
  rows of the adjacency matrix, the bias as a row (1 × 128), the block of 224 result rows, and a scratch of the
  features' shape that lives across the grid. At the first point it stores the product `x · W` into the scratch;
  at every point it then stores `max (block · scratch + bias, 0)` into the result block. Nothing else is written:
  the two loads whose values nothing uses (of the scratch before its store, of the result block before its store)
  are steps and no more.

  Stated for any contents of the buffers and over any float instance, so that the same two triples serve the
  word-level program and its idealization.
-/
import proofs.«121163_g85813446574119_cont_sun_m_903_15_alg».proof.Proof.Gen.Kernel.Frame
import proofs.«121163_g85813446574119_cont_sun_m_903_15_alg».proof.Proof.Gen.Kernel.Skeleton
import Idealize.ShloMosaic.Lib.Pipeline.Value

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The branch on the grid coordinate -/

/-- The body's test `program_id == 0`, as printed (a 32-bit comparison, widened, compared against zero), holds
    exactly at the first of the 45 points. -/
theorem first_iff (i : grid0.Coords) :
    Scalar.cmpi .ne (Scalar.extui (Scalar.cmpi .eq (BitVec.ofNat 32 (i 0).val) 0#32) : BitVec 32) 0#32 = 1#1 ↔ (i 0).val = 0 := by
  have h : ∀ k : Fin 45,
      Scalar.cmpi .ne (Scalar.extui (Scalar.cmpi .eq (BitVec.ofNat 32 k.val) 0#32) : BitVec 32) 0#32 = 1#1 ↔ k.val = 0 := by
    decide
  exact h (i 0)

/-! ## The whole-buffer rectangles the body loads and stores through -/

abbrev rX : Rect S10000x128 := Rect.unit (s := S10000x128) ![0, 0] S10000x128.size inb_S10000x128_S10000x128_0_0
abbrev rW : Rect S128x128 := Rect.unit (s := S128x128) ![0, 0] S128x128.size inb_S128x128_S128x128_0_0
abbrev rA : Rect S224x10000 := Rect.unit (s := S224x10000) ![0, 0] S224x10000.size inb_S224x10000_S224x10000_0_0
abbrev rB : Rect S1x128 := Rect.unit (s := S1x128) ![0, 0] S1x128.size inb_S1x128_S1x128_0_0
abbrev rO : Rect S224x128 := Rect.unit (s := S224x128) ![0, 0] S224x128.size inb_S224x128_S224x128_0_0

theorem hz2 : (![0, 0] : Fin 2 → Nat) = fun _ => 0 := funext fun a => by fin_cases a <;> rfl

/-- One store through the whole-buffer rectangle covers the buffer. -/
theorem coverX (p0 : Vec F S10000x128 .f32) (y : S10000x128.Idx) :
    ∃ pc ∈ ([⟨rX, p0⟩] : List (View.Piece (Elt F) S10000x128 .f32)), y ∈ pc.1.set :=
  ⟨_, List.mem_singleton_self _, View.mem_set_unit_zero hz2 inb_S10000x128_S10000x128_0_0 y⟩
theorem coverO (p0 : Vec F S224x128 .f32) (y : S224x128.Idx) :
    ∃ pc ∈ ([⟨rO, p0⟩] : List (View.Piece (Elt F) S224x128 .f32)), y ∈ pc.1.set :=
  ⟨_, List.mem_singleton_self _, View.mem_set_unit_zero hz2 inb_S224x128_S224x128_0_0 y⟩

/-! ## The body's two triples -/

set_option maxHeartbeats 1000000 in
/-- At a later point (the coordinate is not 0) the scratch is read and kept, and the result block's buffer ends
    at `max (block · scratch + bias, 0)` — the skeleton's payload `k0_pay2` of what the three buffers hold. -/
theorem sound_later (c : Dev nD) (E : Set ℕ) (i : grid0.Coords) (hi : (i 0).val ≠ 0)
    (arg1 : Memref sig .tc .vmem S10000x128 .f32) (harg1 : arg1.IsWhole) (arg2 : Memref sig .tc .vmem S128x128 .f32) (harg2 : arg2.IsWhole)
    (arg3 : Memref sig .tc .vmem S224x10000 .f32) (harg3 : arg3.IsWhole) (arg4 : Memref sig .tc .vmem S1x128 .f32) (harg4 : arg4.IsWhole)
    (arg5 : Memref sig .tc .vmem S224x128 .f32) (harg5 : arg5.IsWhole) (arg6 : Memref sig .tc .vmem S10000x128 .f32) (harg6 : arg6.IsWhole)
    (x0 : Vec F S10000x128 .f32) (x1 : Vec F S128x128 .f32) (x2 : Vec F S224x10000 .f32) (x3 : Vec F S1x128 .f32)
    (s : Vec F S10000x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d) ∗ owns (c : Thread nD τ) arg6 fullShare s
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (k0_pay2 x2 s x3)
            ∗ owns (c : Thread nD τ) arg6 fullShare s) -∗ K ⟨⟩))
      ⊢ wp frame (wpE (defs₀ (F := F)) Variants.none c none) E
          (cc0__gcn_block_kernel i arg1 harg1 arg2 harg2 arg3 harg3 arg4 harg4 arg5 harg5 arg6 harg6) K := by
  have hc : ¬ (Scalar.cmpi .ne (Scalar.extui (Scalar.cmpi .eq (BitVec.ofNat 32 (i 0).val) 0#32) : BitVec 32) 0#32 = 1#1) :=
    fun h => hi ((first_iff i).mp h)
  simp only [cc0__gcn_block_kernel_eq_skeleton]; unfold cc0__gcn_block_kernel_skel
  unfold owns
  iintro ⟨⟨%f0, %hf0, H0⟩, ⟨%f1, %hf1, H1⟩, ⟨%f2, %hf2, H2⟩, ⟨%f3, %hf3, H3⟩, ⟨%d4, %f4, -, H4⟩, ⟨%f6, %hf6, H6⟩, Hk⟩
  subst hf0 hf1 hf2 hf3 hf6
  sl_exec (disch := exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    rw [View.read_writes_eq_canon _ _ _ (coverO _), View.canon_unit_zero hz2]
    simp only [View.readAt_eq_ld, View.ld_unit_zero (S := S224x10000) hz2, View.ld_unit_zero (S := S10000x128) hz2,
      View.ld_unit_zero (S := S128x128) hz2, View.ld_unit_zero (S := S1x128) hz2]
  · iexists f6; isplitr; · ipureintro; rfl
    iexact H6

set_option maxHeartbeats 1000000 in
/-- At the first point (the coordinate is 0) the scratch, whatever it held, ends at `x · W` — the skeleton's payload
    `k0_pay1` of the features' and the weight's buffers —, and the result block's buffer at the payload `k0_pay2` of
    the adjacency block, that product and the bias. -/
theorem sound_first (c : Dev nD) (E : Set ℕ) (i : grid0.Coords) (hi : (i 0).val = 0)
    (arg1 : Memref sig .tc .vmem S10000x128 .f32) (harg1 : arg1.IsWhole) (arg2 : Memref sig .tc .vmem S128x128 .f32) (harg2 : arg2.IsWhole)
    (arg3 : Memref sig .tc .vmem S224x10000 .f32) (harg3 : arg3.IsWhole) (arg4 : Memref sig .tc .vmem S1x128 .f32) (harg4 : arg4.IsWhole)
    (arg5 : Memref sig .tc .vmem S224x128 .f32) (harg5 : arg5.IsWhole) (arg6 : Memref sig .tc .vmem S10000x128 .f32) (harg6 : arg6.IsWhole)
    (x0 : Vec F S10000x128 .f32) (x1 : Vec F S128x128 .f32) (x2 : Vec F S224x10000 .f32) (x3 : Vec F S1x128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d) ∗ (∃ s, owns (c : Thread nD τ) arg6 fullShare s)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (k0_pay2 x2 (k0_pay1 x0 x1) x3)
            ∗ owns (c : Thread nD τ) arg6 fullShare (k0_pay1 x0 x1)) -∗ K ⟨⟩))
      ⊢ wp frame (wpE (defs₀ (F := F)) Variants.none c none) E
          (cc0__gcn_block_kernel i arg1 harg1 arg2 harg2 arg3 harg3 arg4 harg4 arg5 harg5 arg6 harg6) K := by
  have hc : Scalar.cmpi .ne (Scalar.extui (Scalar.cmpi .eq (BitVec.ofNat 32 (i 0).val) 0#32) : BitVec 32) 0#32 = 1#1 :=
    (first_iff i).mpr hi
  simp only [cc0__gcn_block_kernel_eq_skeleton]; unfold cc0__gcn_block_kernel_skel
  unfold owns
  iintro ⟨⟨%f0, %hf0, H0⟩, ⟨%f1, %hf1, H1⟩, ⟨%f2, %hf2, H2⟩, ⟨%f3, %hf3, H3⟩, ⟨%d4, %f4, -, H4⟩, ⟨%s6, %f6, -, H6⟩, Hk⟩
  subst hf0 hf1 hf2 hf3
  sl_exec (disch := exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    rw [View.read_writes_eq_canon _ _ _ (coverO _), View.canon_unit_zero hz2]
    sl_unfold_words
    rw [View.readCov_unit_zero _ hz2]
    simp only [View.readAt_eq_ld, View.ld_unit_zero (S := S224x10000) hz2, View.ld_unit_zero (S := S10000x128) hz2,
      View.ld_unit_zero (S := S128x128) hz2, View.ld_unit_zero (S := S1x128) hz2]
  · iexists _; isplitr
    swap; · iexact H6
    ipureintro
    sl_unfold_words
    rw [View.read_writes_eq_canon _ _ _ (coverX _), View.canon_unit_zero hz2]
    simp only [View.readAt_eq_ld, View.ld_unit_zero (S := S224x10000) hz2, View.ld_unit_zero (S := S10000x128) hz2,
      View.ld_unit_zero (S := S128x128) hz2, View.ld_unit_zero (S := S1x128) hz2]

end Cert.Kernel.Body

end
-- ==== Proof.BodyDataK.lean ====
/-
  The proof data of the layer's one pipeline, and one grid point's step.

  The grid has 45 points; point `t` works on rows `224·t … 224·t + 223` of the adjacency matrix, of which the last
  point's rows past 9999 lie outside the matrix: its fetch lands only the 144 rows inside, and the rest of the
  staging buffer holds words nothing names. The features, the weight and the bias row are fetched once, at the
  first point, and found again at every later one. The scratch holds anything before the first point and the
  product `x · W` after it — the invariant the points hand one another.

  What the buffers hold after the body at point `t`: the three resident inputs their arrays; the adjacency buffer
  its block (written here with zeros past the matrix's end — any filler would do, nothing reads it); the result
  buffer `max (block · (x · W) + bias, 0)`.
-/
import proofs.«121163_g85813446574119_cont_sun_m_903_15_alg».proof.Proof.BodyRunK
import proofs.«121163_g85813446574119_cont_sun_m_903_15_alg».proof.Proof.Gen.Kernel.Points

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ)

/-! ## The proof data -/

/-- The first grid point. -/
abbrev t0 : Fin cfg0.N := ⟨0, by decide⟩

/-- A point's one coordinate is its number. -/
theorem coords_val : ∀ t : Fin cfg0.N, (grid0.coords t 0).val = t.val :=
  (by decide +kernel : ∀ t : Fin grid0.N, (grid0.coords t 0).val = t.val)

/-- The product `x · W` the first point leaves in the scratch: the body's first payload of the features' and the
    weight's arrays (their one block each). -/
def support (c : Dev nD) : Vec F S10000x128 .f32 := k0_pay1 (iblk m c 0 t0) (iblk m c 1 t0)

/-- The adjacency block of point `t` as a full 224-row buffer: the rows inside the matrix, zeros past its end. -/
def adjBlk (c : Dev nD) (t : Fin cfg0.N) : Vec F S224x10000 .f32 :=
  win0_2.fill (grid0.coords t) (fun _ => Scalar.ofBits .f32 0#32) (iblk m c 2 t)

/-- The result block of point `t`: the body's second payload of that block, the product and the bias row. -/
def outBlk (c : Dev nD) (t : Fin cfg0.N) : Vec F S224x128 .f32 := k0_pay2 (adjBlk m c t) (support m c) (iblk m c 3 t)

/-- The invariant before point `t`: before the first, the scratch at anything (the class's own invariant); from
    then on the scratch at `x · W`; the generator register at some state throughout. -/
def inv (c : Dev nD) (t : Fin (cfg0.N + 1)) : sProp 𝕄 :=
  if t.val = 0 then Pipeline.ΦA spec0 c
  else iprop(owns (c : Thread nD τ) (Memref.whole cc0_scratch0) fullShare (support m c) ∗ ∃ r, prngReg c r)

/-- The proof data on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => adjBlk m c t
    | ⟨3, _⟩ => iblk m c 3 t
    | ⟨4, _⟩ => outBlk m c t
  Φ t := inv m c t
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = adjBlk m c t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = outBlk m c t := by dsimp only [dats]

/-! ## What the body finds in each buffer -/

/-- The three resident inputs are found at their arrays, fetched at this point or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_3 (c : Dev nD) (t : Fin cfg0.N) (d) : (dats m 0 c).before 3 t d = iblk m c 3 t :=
  before0_3_of m (dats m 0 c) (A_eq m c 3) (after0_3 m c) t d

/-- The adjacency buffer was just fetched: the block's rows inside the matrix, `d` past its end. -/
theorem before0_2 (c : Dev nD) (t : Fin cfg0.N) (d) :
    (dats m 0 c).before 2 t d = win0_2.fill (grid0.coords t) d (iblk m c 2 t) := by
  rw [(dats m 0 c).before_fetched 2 t (fetch0_2 t) d]
  unfold Dat.fetched Dat.blockOf iblk
  rw [A_eq]

/-- The result buffer was written back at the point before (or this is the first point): it holds anything. -/
theorem before0_4 (c : Dev nD) (t : Fin cfg0.N) (d) : (dats m 0 c).before 4 t d = d :=
  (dats m 0 c).before_out_reset 4 rfl t
    (by by_cases h : t.val = 0
        · exact .inl h
        · exact .inr ⟨h, flush0_4 _⟩) d

/-! ## The invariant at the two ends and from point to point -/

theorem inv_zero (c : Dev nD) : inv m c 0 = Pipeline.ΦA spec0 c := by
  unfold inv; exact if_pos rfl

theorem inv_pos (c : Dev nD) (t : Fin (cfg0.N + 1)) (h : t.val ≠ 0) :
    inv m c t = iprop(owns (c : Thread nD τ) (Memref.whole cc0_scratch0) fullShare (support m c) ∗ ∃ r, prngReg c r) := by
  unfold inv; rw [if_neg h]

/-- Before the first point the class's invariant is the data's. -/
theorem inv_in (c : Dev nD) : (Pipeline.ΦA spec0 c : sProp 𝕄) ⊢ (dats m 0 c).Φ 0 := by
  show _ ⊢ inv m c 0
  rw [inv_zero]

/-- After the last point the scratch is forgotten: the class's invariant again. -/
theorem inv_out (c : Dev nD) : (dats m 0 c).Φ (Fin.last cfg0.N) ⊢ (Pipeline.ΦA spec0 c : sProp 𝕄) := by
  show inv m c (Fin.last cfg0.N) ⊢ _
  rw [inv_pos m c _ (by decide)]
  unfold Pipeline.ΦA
  rw [scopedRest0_eq, owns_whole]
  iintro ⟨H, Hr⟩
  isplitl [H]
  · iexists _; iexact H
  · iexact Hr

end Cert.Kernel.Body

end
-- ==== Proof.BodyPointK.lean ====
/-
  One grid point of the layer, and the body obligations built on it.

  At point `t` the body is handed the three resident inputs at their arrays, the adjacency buffer at its block
  (anything past the matrix's end), the result buffer at anything, and the invariant: the scratch at anything if
  `t` is the first point, at `x · W` otherwise. It hands everything back, the scratch now at `x · W` whatever `t`
  is and the result buffer at `max (buffer · (x · W) + bias, 0)` of the adjacency buffer AS FOUND — the rows past
  the matrix's end included.

  Two obligations follow. The forgetting one says nothing of what the result buffer holds (enough for "runs to
  the end, faults nowhere, leaves its arguments alone"). The exact one says the result buffer agrees with the
  data's result block on the rows the write-back moves; it needs the one fact that those rows of the product do
  not depend on the adjacency buffer's rows past the matrix's end, taken here as a hypothesis and proved where
  the product is a sum.
-/
import proofs.«121163_g85813446574119_cont_sun_m_903_15_alg».proof.Proof.BodyDataK

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ)

/-! ## One point -/

/-- The result buffer after the body at point `t`, of the adjacency buffer as found (`d2` past the matrix's end). -/
def outFound (c : Dev nD) (t : Fin cfg0.N) (d2 : S224x10000.Idx → Elt F .f32) : Vec F S224x128 .f32 :=
  k0_pay2 (win0_2.fill (grid0.coords t) d2 (iblk m c 2 t)) (support m c) (iblk m c 3 t)

set_option maxHeartbeats 1000000 in
/-- The body at point `t`, from the invariant before it to the invariant after it. -/
theorem sound_point (c : Dev nD) (t : Fin cfg0.N) (d2 : S224x10000.Idx → Elt F .f32) (K : PUnit → sProp 𝕄) :
    iprop(inv m c t.castSucc
        ∗ owns (c : Thread nD τ) (st0_0 t) fullShare (iblk m c 0 t) ∗ owns (c : Thread nD τ) (st0_1 t) fullShare (iblk m c 1 t)
        ∗ owns (c : Thread nD τ) (st0_2 t) fullShare (win0_2.fill (grid0.coords t) d2 (iblk m c 2 t))
        ∗ owns (c : Thread nD τ) (st0_3 t) fullShare (iblk m c 3 t) ∗ (∃ d, owns (c : Thread nD τ) (st0_4 t) fullShare d)
        ∗ (iprop(inv m c t.succ
            ∗ owns (c : Thread nD τ) (st0_0 t) fullShare (iblk m c 0 t) ∗ owns (c : Thread nD τ) (st0_1 t) fullShare (iblk m c 1 t)
            ∗ owns (c : Thread nD τ) (st0_2 t) fullShare (win0_2.fill (grid0.coords t) d2 (iblk m c 2 t))
            ∗ owns (c : Thread nD τ) (st0_3 t) fullShare (iblk m c 3 t)
            ∗ owns (c : Thread nD τ) (st0_4 t) fullShare (outFound m c t d2)) -∗ K ⟨⟩))
      ⊢ wp frame (wpE (defs₀ (F := F)) Variants.none c none) Set.univ (bodyAt0 t) K := by
  unfold bodyAt0
  rw [inv_pos m c t.succ (Nat.succ_ne_zero _)]
  by_cases h : t.val = 0
  · obtain rfl : t = t0 := Fin.ext h
    rw [show inv m c (t0 : Fin cfg0.N).castSucc = Pipeline.ΦA spec0 c from if_pos rfl]
    unfold Pipeline.ΦA
    rw [scopedRest0_eq]
    iintro ⟨⟨⟨%f, Hs⟩, Hr⟩, H0, H1, H2, H3, H4, Hk⟩
    iapply (sound_first c Set.univ (grid0.coords t0) (coords_val t0) _ _ _ _ _ _ _ _ _ _ _ _
      (iblk m c 0 t0) (iblk m c 1 t0) (win0_2.fill (grid0.coords t0) d2 (iblk m c 2 t0)) (iblk m c 3 t0) _)
    isplitl [H0]; · iexact H0
    isplitl [H1]; · iexact H1
    isplitl [H2]; · iexact H2
    isplitl [H3]; · iexact H3
    isplitl [H4]; · iexact H4
    isplitl [Hs]
    · iexists f; rw [owns_whole]; iexact Hs
    iintro ⟨H0, H1, H2, H3, H4, H6⟩
    iapply Hk
    isplitl [H6 Hr]
    · isplitl [H6]
      · iexact H6
      · iexact Hr
    isplitl [H0]; · iexact H0
    isplitl [H1]; · iexact H1
    isplitl [H2]; · iexact H2
    isplitl [H3]; · iexact H3
    iexact H4
  · rw [inv_pos m c t.castSucc h]
    iintro ⟨⟨Hs, Hr⟩, H0, H1, H2, H3, H4, Hk⟩
    iapply (sound_later c Set.univ (grid0.coords t) (by rw [coords_val]; exact h) _ _ _ _ _ _ _ _ _ _ _ _
      (iblk m c 0 t) (iblk m c 1 t) (win0_2.fill (grid0.coords t) d2 (iblk m c 2 t)) (iblk m c 3 t) (support m c) _)
    isplitl [H0]; · iexact H0
    isplitl [H1]; · iexact H1
    isplitl [H2]; · iexact H2
    isplitl [H3]; · iexact H3
    isplitl [H4]; · iexact H4
    isplitl [Hs]; · iexact Hs
    iintro ⟨H0, H1, H2, H3, H4, H6⟩
    iapply Hk
    isplitl [H6 Hr]
    · isplitl [H6]
      · iexact H6
      · iexact Hr
    isplitl [H0]; · iexact H0
    isplitl [H1]; · iexact H1
    isplitl [H2]; · iexact H2
    isplitl [H3]; · iexact H3
    iexact H4

/-! ## The obligation that forgets the result buffer -/

/-- Which windows the forgetting obligation says nothing of: the result's. -/
abbrev fgtOut : Fin 5 → Bool := fun | 0 => false | 1 => false | 2 => false | 3 => false | 4 => true | ⟨_ + 5, h⟩ => absurd h (Nat.not_lt.2 (Nat.le_add_left _ _))

/-- The adjacency buffer is handed back as found, which on the rows its fetch moves is the data's block. -/
theorem adj_kept (c : Dev nD) (t : Fin cfg0.N) (d2 : S224x10000.Idx → Elt F .f32) :
    win0_2.fill (grid0.coords t) d2 (win0_2.cut (grid0.coords t) (adjBlk m c t)) = win0_2.fill (grid0.coords t) d2 (iblk m c 2 t) := by
  unfold adjBlk; rw [win0_2.cut_fill]

theorem body_obligation_forget (c : Dev nD) :
    BodyObligationLoose (dats (F := F) m 0 c) (defs₀ (F := F)) Variants.none () Set.univ fgtOut := fun t => by
  rw [bigSep_W0, bigSep_W0]
  simp only
  rw [show (dats m 0 c).Φ t.succ = inv m c t.succ from rfl, show (dats m 0 c).Φ t.castSucc = inv m c t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩⟩
  rw [before0_0 m c t d0, before0_1 m c t d1, before0_2 m c t d2, before0_3 m c t d3]
  iapply (sound_point m c t d2 _)
  isplitl [HΦ]; · iexact HΦ
  isplitl [H0]; · iexact H0
  isplitl [H1]; · iexact H1
  isplitl [H2]; · iexact H2
  isplitl [H3]; · iexact H3
  isplitl [H4]; · iexists d4; iexact H4
  iintro ⟨HΦ, H0, H1, H2, H3, H4⟩
  isplitl [HΦ]; · iexact HΦ
  isplitl [Ho]; · iexact Ho
  rw [after0_0, after0_1, after0_2, after0_3]
  isplitl [H0]; · iexact H0
  isplitl [H1]; · iexact H1
  isplitl [H2]
  · iexists d2
    change _ ⊢ owns (c : Thread nD τ) (st0_2 t) fullShare (win0_2.fill (grid0.coords t) d2 (win0_2.cut (grid0.coords t) (adjBlk m c t)))
    rw [adj_kept]; try iexact H2
  isplitl [H3]; · iexact H3
  iexists _; iexact H4

/-! ## The exact obligation -/

/-- The rows of the result block that the write-back moves do not depend on what the adjacency buffer holds
    past the matrix's end. -/
def RowLocal (c : Dev nD) : Prop :=
  ∀ (t : Fin cfg0.N) (d2 : S224x10000.Idx → Elt F .f32),
    win0_4.cut (grid0.coords t) (outFound m c t d2) = win0_4.cut (grid0.coords t) (outBlk m c t)

theorem body_obligation (c : Dev nD) (hloc : RowLocal m c) :
    BodyObligationLoose (dats (F := F) m 0 c) (defs₀ (F := F)) Variants.none () Set.univ := fun t => by
  rw [bigSep_W0, bigSep_W0]
  simp only
  rw [show (dats m 0 c).Φ t.succ = inv m c t.succ from rfl, show (dats m 0 c).Φ t.castSucc = inv m c t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩⟩
  rw [before0_0 m c t d0, before0_1 m c t d1, before0_2 m c t d2, before0_3 m c t d3, before0_4 m c t d4]
  iapply (sound_point m c t d2 _)
  isplitl [HΦ]; · iexact HΦ
  isplitl [H0]; · iexact H0
  isplitl [H1]; · iexact H1
  isplitl [H2]; · iexact H2
  isplitl [H3]; · iexact H3
  isplitl [H4]; · iexists d4; iexact H4
  iintro ⟨HΦ, H0, H1, H2, H3, H4⟩
  isplitl [HΦ]; · iexact HΦ
  isplitl [Ho]; · iexact Ho
  rw [after0_0, after0_1, after0_2, after0_3, after0_4]
  isplitl [H0]; · iexact H0
  isplitl [H1]; · iexact H1
  isplitl [H2]
  · iexists d2
    change _ ⊢ owns (c : Thread nD τ) (st0_2 t) fullShare (win0_2.fill (grid0.coords t) d2 (win0_2.cut (grid0.coords t) (adjBlk m c t)))
    rw [adj_kept]; try iexact H2
  isplitl [H3]; · iexact H3
  iexists outFound m c t d2
  change _ ⊢ owns (c : Thread nD τ) (st0_4 t) fullShare (win0_4.fill (grid0.coords t) (outFound m c t d2) (win0_4.cut (grid0.coords t) (outBlk m c t)))
  rw [win0_4.fill_congr_cut (grid0.coords t) (hloc t d2)]; try iexact H4

end Cert.Kernel.Body

end
-- ==== Proof.BodyFrameK.lean ====
/-
  The layer's runs, by the library's frame theorem with an invariant the points hand one another.

  `run_main`: under the row-locality of the product, every weakly fair execution of the program terminates,
  faults nowhere, and ends with every windowed array at what the library computes from the proof data — the
  result array at the result blocks written back in point order, the last one cut at the array's end.

  `frame`: with nothing said of the result buffer, the same run read at the argument arrays only: they end as
  they were found.
-/
import proofs.«121163_g85813446574119_cont_sun_m_903_15_alg».proof.Proof.BodyPointK

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

variable (m : (ℓ : Loc nD τ sig) → Buf (Elt F) ℓ) (ρ : Dev nD → PrngReg)

set_option backward.isDefEq.respectTransparency.types false in
/-- The run with every window's contents named. -/
theorem run_main (hloc : ∀ c, RowLocal m c) :
    θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => body_obligation m c (hloc c)) (hshare := fun c => (dats m 0 c).share_full fun _ => rfl)
    (howed := fun _ _ => rfl) (V := V m) (hmain := hmain m Variants.none) (hA := A_eq m)
    (hin := inv_in m) (hout := inv_out m)

set_option backward.isDefEq.respectTransparency.types false in
/-- The run with the result buffer's contents forgotten. -/
theorem run_forget :
    θ_run defs (onTc (τ := τ) (main (F := F))) (s₀ m ρ)
      (Pipeline.RDat.FramePost (cfgs 0) (fun c => (dats m 0 c).toRForget fgtOut) (V m)) :=
  Pipeline.RDat.θ_run_frame_track cfgs (0 : Fin 1) launch0 defs₀ Variants.none (fun c => (dats m 0 c).toRForget fgtOut) m ρ main
    (hbody := fun c => (body_obligation_forget m c).toRForget)
    (hshare := fun c w => (dats m 0 c).share_full (fun _ => rfl) w)
    (howed := fun _ _ => rfl) (V := V m) (hmain := hmain m Variants.none) (hA := fun c w => A_eq m c w)
    (hin := inv_in m) (hout := inv_out m)

/-- The arguments end as they were found: the three staged ones are inputs, never written back; the bias vector
    is no window's array (the pipeline stages its reshaped copy) and bypasses the region. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨Eq.trans (Eq.mp (congrFun (Pipeline.RDat.ArrAt_in ((dats m 0 c).toRForget fgtOut) (0 : Fin 5) rfl _) _) ((h c).1 0))
        ((A_eq m c 0).trans (V_main_arg0 m c)),
      Eq.trans (Eq.mp (congrFun (Pipeline.RDat.ArrAt_in ((dats m 0 c).toRForget fgtOut) (2 : Fin 5) rfl _) _) ((h c).1 2))
        ((A_eq m c 2).trans (V_main_arg1 m c)),
      Eq.trans (Eq.mp (congrFun (Pipeline.RDat.ArrAt_in ((dats m 0 c).toRForget fgtOut) (1 : Fin 5) rfl _) _) ((h c).1 1))
        ((A_eq m c 1).trans (V_main_arg2 m c)),
      ((h c).2 main_arg3 (Pipeline.mem_restRefs_of main_arg3 (by decide) (by decide))).trans (V_main_arg3 m c)⟩)
    (run_forget m ρ)

end Cert.Kernel.Body

end
-- ==== Proof.BodyRunI.lean ====
/-
  The kernel body of the graph-convolution layer, run once at the first grid point and once at any later one.

  The body is handed six whole buffers: the features `x` (10000 × 128), the weight `W` (128 × 128), a block of 224
  rows of the adjacency matrix, the bias as a row (1 × 128), the block of 224 result rows, and a scratch of the
  features' shape that lives across the grid. At the first point it stores the product `x · W` into the scratch;
  at every point it then stores `max (block · scratch + bias, 0)` into the result block. Nothing else is written:
  the two loads whose values nothing uses (of the scratch before its store, of the result block before its store)
  are steps and no more.

  Stated for any contents of the buffers and over any float instance, so that the same two triples serve the
  word-level program and its idealization.
-/
import proofs.«121163_g85813446574119_cont_sun_m_903_15_alg».proof.Proof.Gen.KernelIdeal.Frame
import proofs.«121163_g85813446574119_cont_sun_m_903_15_alg».proof.Proof.Gen.KernelIdeal.Skeleton
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The branch on the grid coordinate -/

/-- The body's test `program_id == 0`, as printed (a 32-bit comparison, widened, compared against zero), holds
    exactly at the first of the 45 points. -/
theorem first_iff (i : grid0.Coords) :
    Scalar.cmpi .ne (Scalar.extui (Scalar.cmpi .eq (BitVec.ofNat 32 (i 0).val) 0#32) : BitVec 32) 0#32 = 1#1 ↔ (i 0).val = 0 := by
  have h : ∀ k : Fin 45,
      Scalar.cmpi .ne (Scalar.extui (Scalar.cmpi .eq (BitVec.ofNat 32 k.val) 0#32) : BitVec 32) 0#32 = 1#1 ↔ k.val = 0 := by
    decide
  exact h (i 0)

/-! ## The whole-buffer rectangles the body loads and stores through -/

abbrev rX : Rect S10000x128 := Rect.unit (s := S10000x128) ![0, 0] S10000x128.size inb_S10000x128_S10000x128_0_0
abbrev rW : Rect S128x128 := Rect.unit (s := S128x128) ![0, 0] S128x128.size inb_S128x128_S128x128_0_0
abbrev rA : Rect S224x10000 := Rect.unit (s := S224x10000) ![0, 0] S224x10000.size inb_S224x10000_S224x10000_0_0
abbrev rB : Rect S1x128 := Rect.unit (s := S1x128) ![0, 0] S1x128.size inb_S1x128_S1x128_0_0
abbrev rO : Rect S224x128 := Rect.unit (s := S224x128) ![0, 0] S224x128.size inb_S224x128_S224x128_0_0

theorem hz2 : (![0, 0] : Fin 2 → Nat) = fun _ => 0 := funext fun a => by fin_cases a <;> rfl

/-- One store through the whole-buffer rectangle covers the buffer. -/
theorem coverX (p0 : Vec F S10000x128 .f32) (y : S10000x128.Idx) :
    ∃ pc ∈ ([⟨rX, p0⟩] : List (View.Piece (Elt F) S10000x128 .f32)), y ∈ pc.1.set :=
  ⟨_, List.mem_singleton_self _, View.mem_set_unit_zero hz2 inb_S10000x128_S10000x128_0_0 y⟩
theorem coverO (p0 : Vec F S224x128 .f32) (y : S224x128.Idx) :
    ∃ pc ∈ ([⟨rO, p0⟩] : List (View.Piece (Elt F) S224x128 .f32)), y ∈ pc.1.set :=
  ⟨_, List.mem_singleton_self _, View.mem_set_unit_zero hz2 inb_S224x128_S224x128_0_0 y⟩

/-! ## The body's two triples -/

set_option maxHeartbeats 1000000 in
/-- At a later point (the coordinate is not 0) the scratch is read and kept, and the result block's buffer ends
    at `max (block · scratch + bias, 0)` — the skeleton's payload `k0_pay2` of what the three buffers hold. -/
theorem sound_later (c : Dev nD) (E : Set ℕ) (i : grid0.Coords) (hi : (i 0).val ≠ 0)
    (arg1 : Memref sig .tc .vmem S10000x128 .f32) (harg1 : arg1.IsWhole) (arg2 : Memref sig .tc .vmem S128x128 .f32) (harg2 : arg2.IsWhole)
    (arg3 : Memref sig .tc .vmem S224x10000 .f32) (harg3 : arg3.IsWhole) (arg4 : Memref sig .tc .vmem S1x128 .f32) (harg4 : arg4.IsWhole)
    (arg5 : Memref sig .tc .vmem S224x128 .f32) (harg5 : arg5.IsWhole) (arg6 : Memref sig .tc .vmem S10000x128 .f32) (harg6 : arg6.IsWhole)
    (x0 : Vec F S10000x128 .f32) (x1 : Vec F S128x128 .f32) (x2 : Vec F S224x10000 .f32) (x3 : Vec F S1x128 .f32)
    (s : Vec F S10000x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d) ∗ owns (c : Thread nD τ) arg6 fullShare s
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (k0_pay2 x2 s x3)
            ∗ owns (c : Thread nD τ) arg6 fullShare s) -∗ K ⟨⟩))
      ⊢ wp frame (wpE (defs₀ (F := F)) Variants.none c none) E
          (cc0__gcn_block_kernel i arg1 harg1 arg2 harg2 arg3 harg3 arg4 harg4 arg5 harg5 arg6 harg6) K := by
  have hc : ¬ (Scalar.cmpi .ne (Scalar.extui (Scalar.cmpi .eq (BitVec.ofNat 32 (i 0).val) 0#32) : BitVec 32) 0#32 = 1#1) :=
    fun h => hi ((first_iff i).mp h)
  simp only [cc0__gcn_block_kernel_eq_skeleton]; unfold cc0__gcn_block_kernel_skel
  unfold owns
  iintro ⟨⟨%f0, %hf0, H0⟩, ⟨%f1, %hf1, H1⟩, ⟨%f2, %hf2, H2⟩, ⟨%f3, %hf3, H3⟩, ⟨%d4, %f4, -, H4⟩, ⟨%f6, %hf6, H6⟩, Hk⟩
  subst hf0 hf1 hf2 hf3 hf6
  sl_exec (disch := exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    rw [View.read_writes_eq_canon _ _ _ (coverO _), View.canon_unit_zero hz2]
    simp only [View.readAt_eq_ld, View.ld_unit_zero (S := S224x10000) hz2, View.ld_unit_zero (S := S10000x128) hz2,
      View.ld_unit_zero (S := S128x128) hz2, View.ld_unit_zero (S := S1x128) hz2]
  · iexists f6; isplitr; · ipureintro; rfl
    iexact H6

set_option maxHeartbeats 1000000 in
/-- At the first point (the coordinate is 0) the scratch, whatever it held, ends at `x · W` — the skeleton's payload
    `k0_pay1` of the features' and the weight's buffers —, and the result block's buffer at the payload `k0_pay2` of
    the adjacency block, that product and the bias. -/
theorem sound_first (c : Dev nD) (E : Set ℕ) (i : grid0.Coords) (hi : (i 0).val = 0)
    (arg1 : Memref sig .tc .vmem S10000x128 .f32) (harg1 : arg1.IsWhole) (arg2 : Memref sig .tc .vmem S128x128 .f32) (harg2 : arg2.IsWhole)
    (arg3 : Memref sig .tc .vmem S224x10000 .f32) (harg3 : arg3.IsWhole) (arg4 : Memref sig .tc .vmem S1x128 .f32) (harg4 : arg4.IsWhole)
    (arg5 : Memref sig .tc .vmem S224x128 .f32) (harg5 : arg5.IsWhole) (arg6 : Memref sig .tc .vmem S10000x128 .f32) (harg6 : arg6.IsWhole)
    (x0 : Vec F S10000x128 .f32) (x1 : Vec F S128x128 .f32) (x2 : Vec F S224x10000 .f32) (x3 : Vec F S1x128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d) ∗ (∃ s, owns (c : Thread nD τ) arg6 fullShare s)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (k0_pay2 x2 (k0_pay1 x0 x1) x3)
            ∗ owns (c : Thread nD τ) arg6 fullShare (k0_pay1 x0 x1)) -∗ K ⟨⟩))
      ⊢ wp frame (wpE (defs₀ (F := F)) Variants.none c none) E
          (cc0__gcn_block_kernel i arg1 harg1 arg2 harg2 arg3 harg3 arg4 harg4 arg5 harg5 arg6 harg6) K := by
  have hc : Scalar.cmpi .ne (Scalar.extui (Scalar.cmpi .eq (BitVec.ofNat 32 (i 0).val) 0#32) : BitVec 32) 0#32 = 1#1 :=
    (first_iff i).mpr hi
  simp only [cc0__gcn_block_kernel_eq_skeleton]; unfold cc0__gcn_block_kernel_skel
  unfold owns
  iintro ⟨⟨%f0, %hf0, H0⟩, ⟨%f1, %hf1, H1⟩, ⟨%f2, %hf2, H2⟩, ⟨%f3, %hf3, H3⟩, ⟨%d4, %f4, -, H4⟩, ⟨%s6, %f6, -, H6⟩, Hk⟩
  subst hf0 hf1 hf2 hf3
  sl_exec (disch := exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    rw [View.read_writes_eq_canon _ _ _ (coverO _), View.canon_unit_zero hz2]
    sl_unfold_words
    rw [View.readCov_unit_zero _ hz2]
    simp only [View.readAt_eq_ld, View.ld_unit_zero (S := S224x10000) hz2, View.ld_unit_zero (S := S10000x128) hz2,
      View.ld_unit_zero (S := S128x128) hz2, View.ld_unit_zero (S := S1x128) hz2]
  · iexists _; isplitr
    swap; · iexact H6
    ipureintro
    sl_unfold_words
    rw [View.read_writes_eq_canon _ _ _ (coverX _), View.canon_unit_zero hz2]
    simp only [View.readAt_eq_ld, View.ld_unit_zero (S := S224x10000) hz2, View.ld_unit_zero (S := S10000x128) hz2,
      View.ld_unit_zero (S := S128x128) hz2, View.ld_unit_zero (S := S1x128) hz2]

end Cert.KernelIdeal.Body

end
-- ==== Proof.BodyDataI.lean ====
/-
  The proof data of the layer's one pipeline, and one grid point's step.

  The grid has 45 points; point `t` works on rows `224·t … 224·t + 223` of the adjacency matrix, of which the last
  point's rows past 9999 lie outside the matrix: its fetch lands only the 144 rows inside, and the rest of the
  staging buffer holds words nothing names. The features, the weight and the bias row are fetched once, at the
  first point, and found again at every later one. The scratch holds anything before the first point and the
  product `x · W` after it — the invariant the points hand one another.

  What the buffers hold after the body at point `t`: the three resident inputs their arrays; the adjacency buffer
  its block (written here with zeros past the matrix's end — any filler would do, nothing reads it); the result
  buffer `max (block · (x · W) + bias, 0)`.
-/
import proofs.«121163_g85813446574119_cont_sun_m_903_15_alg».proof.Proof.BodyRunI
import proofs.«121163_g85813446574119_cont_sun_m_903_15_alg».proof.Proof.Gen.KernelIdeal.Points

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ)

/-! ## The proof data -/

/-- The first grid point. -/
abbrev t0 : Fin cfg0.N := ⟨0, by decide⟩

/-- A point's one coordinate is its number. -/
theorem coords_val : ∀ t : Fin cfg0.N, (grid0.coords t 0).val = t.val :=
  (by decide +kernel : ∀ t : Fin grid0.N, (grid0.coords t 0).val = t.val)

/-- The product `x · W` the first point leaves in the scratch: the body's first payload of the features' and the
    weight's arrays (their one block each). -/
def support (c : Dev nD) : Vec F S10000x128 .f32 := k0_pay1 (iblk m c 0 t0) (iblk m c 1 t0)

/-- The adjacency block of point `t` as a full 224-row buffer: the rows inside the matrix, zeros past its end. -/
def adjBlk (c : Dev nD) (t : Fin cfg0.N) : Vec F S224x10000 .f32 :=
  win0_2.fill (grid0.coords t) (fun _ => Scalar.ofBits .f32 0#32) (iblk m c 2 t)

/-- The result block of point `t`: the body's second payload of that block, the product and the bias row. -/
def outBlk (c : Dev nD) (t : Fin cfg0.N) : Vec F S224x128 .f32 := k0_pay2 (adjBlk m c t) (support m c) (iblk m c 3 t)

/-- The invariant before point `t`: before the first, the scratch at anything (the class's own invariant); from
    then on the scratch at `x · W`; the generator register at some state throughout. -/
def inv (c : Dev nD) (t : Fin (cfg0.N + 1)) : sProp 𝕄 :=
  if t.val = 0 then Pipeline.ΦA spec0 c
  else iprop(owns (c : Thread nD τ) (Memref.whole cc0_scratch0) fullShare (support m c) ∗ ∃ r, prngReg c r)

/-- The proof data on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => adjBlk m c t
    | ⟨3, _⟩ => iblk m c 3 t
    | ⟨4, _⟩ => outBlk m c t
  Φ t := inv m c t
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = adjBlk m c t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = outBlk m c t := by dsimp only [dats]

/-! ## What the body finds in each buffer -/

/-- The three resident inputs are found at their arrays, fetched at this point or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_3 (c : Dev nD) (t : Fin cfg0.N) (d) : (dats m 0 c).before 3 t d = iblk m c 3 t :=
  before0_3_of m (dats m 0 c) (A_eq m c 3) (after0_3 m c) t d

/-- The adjacency buffer was just fetched: the block's rows inside the matrix, `d` past its end. -/
theorem before0_2 (c : Dev nD) (t : Fin cfg0.N) (d) :
    (dats m 0 c).before 2 t d = win0_2.fill (grid0.coords t) d (iblk m c 2 t) := by
  rw [(dats m 0 c).before_fetched 2 t (fetch0_2 t) d]
  unfold Dat.fetched Dat.blockOf iblk
  rw [A_eq]

/-- The result buffer was written back at the point before (or this is the first point): it holds anything. -/
theorem before0_4 (c : Dev nD) (t : Fin cfg0.N) (d) : (dats m 0 c).before 4 t d = d :=
  (dats m 0 c).before_out_reset 4 rfl t
    (by by_cases h : t.val = 0
        · exact .inl h
        · exact .inr ⟨h, flush0_4 _⟩) d

/-! ## The invariant at the two ends and from point to point -/

theorem inv_zero (c : Dev nD) : inv m c 0 = Pipeline.ΦA spec0 c := by
  unfold inv; exact if_pos rfl

theorem inv_pos (c : Dev nD) (t : Fin (cfg0.N + 1)) (h : t.val ≠ 0) :
    inv m c t = iprop(owns (c : Thread nD τ) (Memref.whole cc0_scratch0) fullShare (support m c) ∗ ∃ r, prngReg c r) := by
  unfold inv; rw [if_neg h]

/-- Before the first point the class's invariant is the data's. -/
theorem inv_in (c : Dev nD) : (Pipeline.ΦA spec0 c : sProp 𝕄) ⊢ (dats m 0 c).Φ 0 := by
  show _ ⊢ inv m c 0
  rw [inv_zero]

/-- After the last point the scratch is forgotten: the class's invariant again. -/
theorem inv_out (c : Dev nD) : (dats m 0 c).Φ (Fin.last cfg0.N) ⊢ (Pipeline.ΦA spec0 c : sProp 𝕄) := by
  show inv m c (Fin.last cfg0.N) ⊢ _
  rw [inv_pos m c _ (by decide)]
  unfold Pipeline.ΦA
  rw [scopedRest0_eq, owns_whole]
  iintro ⟨H, Hr⟩
  isplitl [H]
  · iexists _; iexact H
  · iexact Hr

end Cert.KernelIdeal.Body

end
-- ==== Proof.BodyPointI.lean ====
/-
  One grid point of the layer, and the body obligations built on it.

  At point `t` the body is handed the three resident inputs at their arrays, the adjacency buffer at its block
  (anything past the matrix's end), the result buffer at anything, and the invariant: the scratch at anything if
  `t` is the first point, at `x · W` otherwise. It hands everything back, the scratch now at `x · W` whatever `t`
  is and the result buffer at `max (buffer · (x · W) + bias, 0)` of the adjacency buffer AS FOUND — the rows past
  the matrix's end included.

  Two obligations follow. The forgetting one says nothing of what the result buffer holds (enough for "runs to
  the end, faults nowhere, leaves its arguments alone"). The exact one says the result buffer agrees with the
  data's result block on the rows the write-back moves; it needs the one fact that those rows of the product do
  not depend on the adjacency buffer's rows past the matrix's end, taken here as a hypothesis and proved where
  the product is a sum.
-/
import proofs.«121163_g85813446574119_cont_sun_m_903_15_alg».proof.Proof.BodyDataI

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ)

/-! ## One point -/

/-- The result buffer after the body at point `t`, of the adjacency buffer as found (`d2` past the matrix's end). -/
def outFound (c : Dev nD) (t : Fin cfg0.N) (d2 : S224x10000.Idx → Elt F .f32) : Vec F S224x128 .f32 :=
  k0_pay2 (win0_2.fill (grid0.coords t) d2 (iblk m c 2 t)) (support m c) (iblk m c 3 t)

set_option maxHeartbeats 1000000 in
/-- The body at point `t`, from the invariant before it to the invariant after it. -/
theorem sound_point (c : Dev nD) (t : Fin cfg0.N) (d2 : S224x10000.Idx → Elt F .f32) (K : PUnit → sProp 𝕄) :
    iprop(inv m c t.castSucc
        ∗ owns (c : Thread nD τ) (st0_0 t) fullShare (iblk m c 0 t) ∗ owns (c : Thread nD τ) (st0_1 t) fullShare (iblk m c 1 t)
        ∗ owns (c : Thread nD τ) (st0_2 t) fullShare (win0_2.fill (grid0.coords t) d2 (iblk m c 2 t))
        ∗ owns (c : Thread nD τ) (st0_3 t) fullShare (iblk m c 3 t) ∗ (∃ d, owns (c : Thread nD τ) (st0_4 t) fullShare d)
        ∗ (iprop(inv m c t.succ
            ∗ owns (c : Thread nD τ) (st0_0 t) fullShare (iblk m c 0 t) ∗ owns (c : Thread nD τ) (st0_1 t) fullShare (iblk m c 1 t)
            ∗ owns (c : Thread nD τ) (st0_2 t) fullShare (win0_2.fill (grid0.coords t) d2 (iblk m c 2 t))
            ∗ owns (c : Thread nD τ) (st0_3 t) fullShare (iblk m c 3 t)
            ∗ owns (c : Thread nD τ) (st0_4 t) fullShare (outFound m c t d2)) -∗ K ⟨⟩))
      ⊢ wp frame (wpE (defs₀ (F := F)) Variants.none c none) Set.univ (bodyAt0 t) K := by
  unfold bodyAt0
  rw [inv_pos m c t.succ (Nat.succ_ne_zero _)]
  by_cases h : t.val = 0
  · obtain rfl : t = t0 := Fin.ext h
    rw [show inv m c (t0 : Fin cfg0.N).castSucc = Pipeline.ΦA spec0 c from if_pos rfl]
    unfold Pipeline.ΦA
    rw [scopedRest0_eq]
    iintro ⟨⟨⟨%f, Hs⟩, Hr⟩, H0, H1, H2, H3, H4, Hk⟩
    iapply (sound_first c Set.univ (grid0.coords t0) (coords_val t0) _ _ _ _ _ _ _ _ _ _ _ _
      (iblk m c 0 t0) (iblk m c 1 t0) (win0_2.fill (grid0.coords t0) d2 (iblk m c 2 t0)) (iblk m c 3 t0) _)
    isplitl [H0]; · iexact H0
    isplitl [H1]; · iexact H1
    isplitl [H2]; · iexact H2
    isplitl [H3]; · iexact H3
    isplitl [H4]; · iexact H4
    isplitl [Hs]
    · iexists f; rw [owns_whole]; iexact Hs
    iintro ⟨H0, H1, H2, H3, H4, H6⟩
    iapply Hk
    isplitl [H6 Hr]
    · isplitl [H6]
      · iexact H6
      · iexact Hr
    isplitl [H0]; · iexact H0
    isplitl [H1]; · iexact H1
    isplitl [H2]; · iexact H2
    isplitl [H3]; · iexact H3
    iexact H4
  · rw [inv_pos m c t.castSucc h]
    iintro ⟨⟨Hs, Hr⟩, H0, H1, H2, H3, H4, Hk⟩
    iapply (sound_later c Set.univ (grid0.coords t) (by rw [coords_val]; exact h) _ _ _ _ _ _ _ _ _ _ _ _
      (iblk m c 0 t) (iblk m c 1 t) (win0_2.fill (grid0.coords t) d2 (iblk m c 2 t)) (iblk m c 3 t) (support m c) _)
    isplitl [H0]; · iexact H0
    isplitl [H1]; · iexact H1
    isplitl [H2]; · iexact H2
    isplitl [H3]; · iexact H3
    isplitl [H4]; · iexact H4
    isplitl [Hs]; · iexact Hs
    iintro ⟨H0, H1, H2, H3, H4, H6⟩
    iapply Hk
    isplitl [H6 Hr]
    · isplitl [H6]
      · iexact H6
      · iexact Hr
    isplitl [H0]; · iexact H0
    isplitl [H1]; · iexact H1
    isplitl [H2]; · iexact H2
    isplitl [H3]; · iexact H3
    iexact H4

/-! ## The obligation that forgets the result buffer -/

/-- Which windows the forgetting obligation says nothing of: the result's. -/
abbrev fgtOut : Fin 5 → Bool := fun | 0 => false | 1 => false | 2 => false | 3 => false | 4 => true | ⟨_ + 5, h⟩ => absurd h (Nat.not_lt.2 (Nat.le_add_left _ _))

/-- The adjacency buffer is handed back as found, which on the rows its fetch moves is the data's block. -/
theorem adj_kept (c : Dev nD) (t : Fin cfg0.N) (d2 : S224x10000.Idx → Elt F .f32) :
    win0_2.fill (grid0.coords t) d2 (win0_2.cut (grid0.coords t) (adjBlk m c t)) = win0_2.fill (grid0.coords t) d2 (iblk m c 2 t) := by
  unfold adjBlk; rw [win0_2.cut_fill]

theorem body_obligation_forget (c : Dev nD) :
    BodyObligationLoose (dats (F := F) m 0 c) (defs₀ (F := F)) Variants.none () Set.univ fgtOut := fun t => by
  rw [bigSep_W0, bigSep_W0]
  simp only
  rw [show (dats m 0 c).Φ t.succ = inv m c t.succ from rfl, show (dats m 0 c).Φ t.castSucc = inv m c t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩⟩
  rw [before0_0 m c t d0, before0_1 m c t d1, before0_2 m c t d2, before0_3 m c t d3]
  iapply (sound_point m c t d2 _)
  isplitl [HΦ]; · iexact HΦ
  isplitl [H0]; · iexact H0
  isplitl [H1]; · iexact H1
  isplitl [H2]; · iexact H2
  isplitl [H3]; · iexact H3
  isplitl [H4]; · iexists d4; iexact H4
  iintro ⟨HΦ, H0, H1, H2, H3, H4⟩
  isplitl [HΦ]; · iexact HΦ
  isplitl [Ho]; · iexact Ho
  rw [after0_0, after0_1, after0_2, after0_3]
  isplitl [H0]; · iexact H0
  isplitl [H1]; · iexact H1
  isplitl [H2]
  · iexists d2
    change _ ⊢ owns (c : Thread nD τ) (st0_2 t) fullShare (win0_2.fill (grid0.coords t) d2 (win0_2.cut (grid0.coords t) (adjBlk m c t)))
    rw [adj_kept]; try iexact H2
  isplitl [H3]; · iexact H3
  iexists _; iexact H4

/-! ## The exact obligation -/

/-- The rows of the result block that the write-back moves do not depend on what the adjacency buffer holds
    past the matrix's end. -/
def RowLocal (c : Dev nD) : Prop :=
  ∀ (t : Fin cfg0.N) (d2 : S224x10000.Idx → Elt F .f32),
    win0_4.cut (grid0.coords t) (outFound m c t d2) = win0_4.cut (grid0.coords t) (outBlk m c t)

theorem body_obligation (c : Dev nD) (hloc : RowLocal m c) :
    BodyObligationLoose (dats (F := F) m 0 c) (defs₀ (F := F)) Variants.none () Set.univ := fun t => by
  rw [bigSep_W0, bigSep_W0]
  simp only
  rw [show (dats m 0 c).Φ t.succ = inv m c t.succ from rfl, show (dats m 0 c).Φ t.castSucc = inv m c t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩⟩
  rw [before0_0 m c t d0, before0_1 m c t d1, before0_2 m c t d2, before0_3 m c t d3, before0_4 m c t d4]
  iapply (sound_point m c t d2 _)
  isplitl [HΦ]; · iexact HΦ
  isplitl [H0]; · iexact H0
  isplitl [H1]; · iexact H1
  isplitl [H2]; · iexact H2
  isplitl [H3]; · iexact H3
  isplitl [H4]; · iexists d4; iexact H4
  iintro ⟨HΦ, H0, H1, H2, H3, H4⟩
  isplitl [HΦ]; · iexact HΦ
  isplitl [Ho]; · iexact Ho
  rw [after0_0, after0_1, after0_2, after0_3, after0_4]
  isplitl [H0]; · iexact H0
  isplitl [H1]; · iexact H1
  isplitl [H2]
  · iexists d2
    change _ ⊢ owns (c : Thread nD τ) (st0_2 t) fullShare (win0_2.fill (grid0.coords t) d2 (win0_2.cut (grid0.coords t) (adjBlk m c t)))
    rw [adj_kept]; try iexact H2
  isplitl [H3]; · iexact H3
  iexists outFound m c t d2
  change _ ⊢ owns (c : Thread nD τ) (st0_4 t) fullShare (win0_4.fill (grid0.coords t) (outFound m c t d2) (win0_4.cut (grid0.coords t) (outBlk m c t)))
  rw [win0_4.fill_congr_cut (grid0.coords t) (hloc t d2)]; try iexact H4

end Cert.KernelIdeal.Body

end
-- ==== Proof.BodyFrameI.lean ====
/-
  The layer's runs, by the library's frame theorem with an invariant the points hand one another.

  `run_main`: under the row-locality of the product, every weakly fair execution of the program terminates,
  faults nowhere, and ends with every windowed array at what the library computes from the proof data — the
  result array at the result blocks written back in point order, the last one cut at the array's end.

  `frame`: with nothing said of the result buffer, the same run read at the argument arrays only: they end as
  they were found.
-/
import proofs.«121163_g85813446574119_cont_sun_m_903_15_alg».proof.Proof.BodyPointI

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

variable (m : (ℓ : Loc nD τ sig) → Buf (Elt F) ℓ) (ρ : Dev nD → PrngReg)

set_option backward.isDefEq.respectTransparency.types false in
/-- The run with every window's contents named. -/
theorem run_main (hloc : ∀ c, RowLocal m c) :
    θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => body_obligation m c (hloc c)) (hshare := fun c => (dats m 0 c).share_full fun _ => rfl)
    (howed := fun _ _ => rfl) (V := V m) (hmain := hmain m Variants.none) (hA := A_eq m)
    (hin := inv_in m) (hout := inv_out m)

set_option backward.isDefEq.respectTransparency.types false in
/-- The run with the result buffer's contents forgotten. -/
theorem run_forget :
    θ_run defs (onTc (τ := τ) (main (F := F))) (s₀ m ρ)
      (Pipeline.RDat.FramePost (cfgs 0) (fun c => (dats m 0 c).toRForget fgtOut) (V m)) :=
  Pipeline.RDat.θ_run_frame_track cfgs (0 : Fin 1) launch0 defs₀ Variants.none (fun c => (dats m 0 c).toRForget fgtOut) m ρ main
    (hbody := fun c => (body_obligation_forget m c).toRForget)
    (hshare := fun c w => (dats m 0 c).share_full (fun _ => rfl) w)
    (howed := fun _ _ => rfl) (V := V m) (hmain := hmain m Variants.none) (hA := fun c w => A_eq m c w)
    (hin := inv_in m) (hout := inv_out m)

/-- The arguments end as they were found: the three staged ones are inputs, never written back; the bias vector
    is no window's array (the pipeline stages its reshaped copy) and bypasses the region. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨Eq.trans (Eq.mp (congrFun (Pipeline.RDat.ArrAt_in ((dats m 0 c).toRForget fgtOut) (0 : Fin 5) rfl _) _) ((h c).1 0))
        ((A_eq m c 0).trans (V_main_arg0 m c)),
      Eq.trans (Eq.mp (congrFun (Pipeline.RDat.ArrAt_in ((dats m 0 c).toRForget fgtOut) (2 : Fin 5) rfl _) _) ((h c).1 2))
        ((A_eq m c 2).trans (V_main_arg1 m c)),
      Eq.trans (Eq.mp (congrFun (Pipeline.RDat.ArrAt_in ((dats m 0 c).toRForget fgtOut) (1 : Fin 5) rfl _) _) ((h c).1 1))
        ((A_eq m c 1).trans (V_main_arg2 m c)),
      ((h c).2 main_arg3 (Pipeline.mem_restRefs_of main_arg3 (by decide) (by decide))).trans (V_main_arg3 m c)⟩)
    (run_forget m ρ)

end Cert.KernelIdeal.Body

end
-- ==== Proof.RefAt.lean ====
/-
  The reference's result at an index.

  The reference computes, for node features `x` (10000 × 128), an adjacency matrix `adj` (10000 × 10000), weights
  `W` (128 × 128) and a bias `b` (128), the array  max (adj · (x · W) + b, 0): two matrix products, the bias added to
  every row, and the positive part. Read over the extended reals, its element (i, c) is

      max (∑ k, adj (i, k) * (∑ j, x (k, j) * W (j, c)) + b c) 0.

  This file proves that equation for the last stage of the reference's run (`ref_at`), and the whole-array equation
  between the term the run states for its result and the function `G` with those elements (`ref_run_eq`).
-/
import proofs.«121163_g85813446574119_cont_sun_m_903_15_alg».proof.Proof.Gen.ReferenceIdeal.Read
import Idealize.ShloMosaic.Lib.ValueIdx
import Idealize.ShloMosaic.PureOps.Ideal.Laws

noncomputable section

namespace Cert.ReferenceIdeal.RefAt

open Cert.ReferenceIdeal Cert.ReferenceIdeal.Gen Idealize.ShloMosaic Idealize.ShloMosaic.TcCoe Idealize.SL.Sem
  Idealize.ShloMosaic.StableHlo Idealize.ShloMosaic.ValueIdx

/-- The layer's result as a function of its four arguments, element by element over the extended reals:
    element (i, c) is the positive part of  ∑ k, adj (i, k) * (∑ j, x (k, j) * W (j, c)) + b c. -/
def G (x : (⟨S10000x128, .f32⟩ : BufTy).Contents (Elt Ideal)) (adj : (⟨S10000x10000, .f32⟩ : BufTy).Contents (Elt Ideal))
    (W : (⟨S128x128, .f32⟩ : BufTy).Contents (Elt Ideal)) (b : (⟨S128, .f32⟩ : BufTy).Contents (Elt Ideal)) :
    (⟨S10000x128, .f32⟩ : BufTy).Contents (Elt Ideal) :=
  fun j => max (∑ k : Fin 10000, adj (ix2 (j 0) k) * (∑ l : Fin 128, x (ix2 k l) * W (ix2 l (j 1))) + b (ix1 (j 1))) 0

/-- `G` at the index (i, c). -/
theorem G_apply (x : (⟨S10000x128, .f32⟩ : BufTy).Contents (Elt Ideal)) (adj : (⟨S10000x10000, .f32⟩ : BufTy).Contents (Elt Ideal))
    (W : (⟨S128x128, .f32⟩ : BufTy).Contents (Elt Ideal)) (b : (⟨S128, .f32⟩ : BufTy).Contents (Elt Ideal))
    (i : Fin 10000) (c : Fin 128) :
    G x adj W b (ix2 i c)
      = max (∑ k : Fin 10000, adj (ix2 i k) * (∑ j : Fin 128, x (ix2 k j) * W (ix2 j c)) + b (ix1 c)) 0 := rfl

/-- In the first product x · W at (k, c), the left operand is read at (k, j) … -/
theorem lidx0 (k : Fin 10000) (c : Fin 128) (j : Fin 128) : Read.lidx_main_v0 (ix2 k c) j = ix2 k j :=
  funext fun a => Fin.ext (by match a with | ⟨0, _⟩ => rfl | ⟨1, _⟩ => rfl)
/-- … and the right operand at (j, c). -/
theorem ridx0 (k : Fin 10000) (c : Fin 128) (j : Fin 128) : Read.ridx_main_v0 (ix2 k c) j = ix2 j c :=
  funext fun a => Fin.ext (by match a with | ⟨0, _⟩ => rfl | ⟨1, _⟩ => rfl)
/-- In the second product adj · (x · W) at (i, c), the left operand is read at (i, k) … -/
theorem lidx1 (i : Fin 10000) (c : Fin 128) (k : Fin 10000) : Read.lidx_main_v1 (ix2 i c) k = ix2 i k :=
  funext fun a => Fin.ext (by match a with | ⟨0, _⟩ => rfl | ⟨1, _⟩ => rfl)
/-- … and the right operand at (k, c). -/
theorem ridx1 (i : Fin 10000) (c : Fin 128) (k : Fin 10000) : Read.ridx_main_v1 (ix2 i c) k = ix2 k c :=
  funext fun a => Fin.ext (by match a with | ⟨0, _⟩ => rfl | ⟨1, _⟩ => rfl)
/-- The bias, broadcast first to one row and then to every row, is read at the column c. -/
theorem bidx (i : Fin 10000) (c : Fin 128) : Read.idx_main_v2 (Read.idx_main_v3 (ix2 i c)) = ix1 c :=
  funext fun a => Fin.ext (by match a with | ⟨0, _⟩ => rfl)

/-- The first product at an index: (x · W) (k, c) = ∑ j, x (k, j) * W (j, c). -/
theorem xw_at (x : (⟨S10000x128, .f32⟩ : BufTy).Contents (Elt Ideal)) (W : (⟨S128x128, .f32⟩ : BufTy).Contents (Elt Ideal))
    (k : Fin 10000) (c : Fin 128) :
    Read.val_main_v0 (F := Ideal) x W (ix2 k c) = ∑ j : Fin 128, x (ix2 k j) * W (ix2 j c) := by
  rw [Read.val_main_v0_apply]
  simp only [lidx0, ridx0]

/-- The reference's last stage at the index (i, c): the positive part of the aggregated, biased product. The
    reference takes the maximum with a zero array in the second place, which is the form stated. -/
theorem ref_at (x : (⟨S10000x128, .f32⟩ : BufTy).Contents (Elt Ideal)) (adj : (⟨S10000x10000, .f32⟩ : BufTy).Contents (Elt Ideal))
    (W : (⟨S128x128, .f32⟩ : BufTy).Contents (Elt Ideal)) (b : (⟨S128, .f32⟩ : BufTy).Contents (Elt Ideal))
    (i : Fin 10000) (c : Fin 128) :
    Read.val_main_v5 (F := Ideal) x adj W b (ix2 i c)
      = max (∑ k : Fin 10000, adj (ix2 i k) * (∑ j : Fin 128, x (ix2 k j) * W (ix2 j c)) + b (ix1 c)) 0 := by
  rw [Read.val_main_v5_apply, Read.val_main_v4_apply, Read.val_main_v1_apply, Read.val_main_v3_apply,
    Read.val_main_v2_apply, Read.val_main_call0_v0_apply, Read.val_main_call0_cst_apply]
  simp only [lidx1, ridx1, bidx, xw_at]
  show max _ (Ideal.ofBits .f32 0x00000000#32) = _
  rw [Ideal.ofBits_zero_f32]
  rfl

/-- The reference's last stage is `G`. -/
theorem val_eq_G (x : (⟨S10000x128, .f32⟩ : BufTy).Contents (Elt Ideal)) (adj : (⟨S10000x10000, .f32⟩ : BufTy).Contents (Elt Ideal))
    (W : (⟨S128x128, .f32⟩ : BufTy).Contents (Elt Ideal)) (b : (⟨S128, .f32⟩ : BufTy).Contents (Elt Ideal)) :
    Read.val_main_v5 (F := Ideal) x adj W b = G x adj W b := by
  funext j
  obtain ⟨p, q, rfl⟩ : ∃ (p : Fin 10000) (q : Fin 128), j = ix2 p q := ⟨j 0, j 1, eq_ix2 j⟩
  rw [ref_at, G_apply]

/-- The term the reference's run states for its result — the maximum, with a zero array, of the second product plus
    the twice-broadcast bias — is `G` of the arguments. -/
theorem ref_run_eq (x : (⟨S10000x128, .f32⟩ : BufTy).Contents (Elt Ideal)) (adj : (⟨S10000x10000, .f32⟩ : BufTy).Contents (Elt Ideal))
    (W : (⟨S128x128, .f32⟩ : BufTy).Contents (Elt Ideal)) (b : (⟨S128, .f32⟩ : BufTy).Contents (Elt Ideal)) :
    maximumf (addf (Host.dotGeneral (F := Ideal) (φ₁ := .f32) (φ₂ := .f32) dot_S10000x10000_S10000x128_S10000x128_1_0_0_1_n_n none (adj) (Host.dotGeneral (F := Ideal) (φ₁ := .f32) (φ₂ := .f32) dot_S10000x128_S128x128_S10000x128_1_0_0_1_n_n none (x) (W))) (broadcastInDim S10000x128 ![0, 1] bcast_S1x128_S10000x128_0_1 (broadcastInDim S1x128 ![1] bcast_S128_S1x128_1 (b)))) (broadcastInDim S10000x128 ![] bcast_S_S10000x128 (constant (F := Ideal) S_ .f32 0x00000000#32))
      = G x adj W b :=
  (Read.val_main_v5_eq (F := Ideal) x adj W b).trans (val_eq_G x adj W b)

end Cert.ReferenceIdeal.RefAt

end
-- ==== Proof.PayAt.lean ====
/-
  The kernel's two stored values at an index.

  The kernel first forms the product  XW = x · W  (10000 × 128 by 128 × 128) into a zero accumulator, and then, for each
  block of 224 rows of the adjacency matrix, the block of the result
  max (A · XW + bias, 0),  where `A` is the 224 × 10000 block of rows and the bias is one row added to every row.
  Read over the extended reals:

      first value at (k, q)   =  ∑ j, x (k, j) * W (j, q),
      second value at (p, q)  =  max (∑ k, A (p, k) * XW (k, q) + bias (0, q)) 0.

  A matrix product into a zero accumulator is the sum over the one contracted axis of the products of the operands read
  at (row, contraction) and (contraction, column); a shape cast to the same shape is the identity; one row broadcast
  over 224 rows reads that row; the positive part is the maximum with the zero the word `0x00000000` encodes.
-/
import proofs.«121163_g85813446574119_cont_sun_m_903_15_alg».proof.Proof.Gen.KernelIdeal.Skeleton
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.PayAt

open Cert.KernelIdeal Cert.KernelIdeal.Gen Idealize.ShloMosaic Idealize.SL.Sem Idealize.ShloMosaic.ValueIdx

/-! ## The first product's operand indices -/

/-- At output (i₀, i₁) and contraction coordinate q, the left operand's row is i₀ … -/
theorem lhs1_0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
/-- … its column is q … -/
theorem lhs1_1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
/-- … the right operand's row is q … -/
theorem rhs1_0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
/-- … and its column is i₁. -/
theorem rhs1_1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- The first product into a zero accumulator, at (k, q): ∑ j, x (k, j) * W (j, q). -/
theorem mm1_at (v13 : FVec Ideal S10000x128 .f32) (v14 : FVec Ideal S128x128 .f32) (k : Fin 10000) (q : Fin 128) :
    FloatOps.matmul dot_S10000x128_S128x128_S10000x128_1_0_0_1_n_n none v13 v14 (constant (F := Ideal) S10000x128 .f32 0x00000000#32) (ix2 k q)
      = ∑ j : Fin 128, v13 (ix2 k j) * v14 (ix2 j q) := by
  rw [Ideal.matmul_constant_zero_apply, ← Equiv.sum_comp (contrEquiv1 dot_S10000x128_S128x128_S10000x128_1_0_0_1_n_n 128 rfl rfl).symm]
  refine Finset.sum_congr rfl fun j _ => ?_
  have hj := contrEquiv1_symm_val dot_S10000x128_S128x128_S10000x128_1_0_0_1_n_n 128 rfl rfl j
  have el : dot_S10000x128_S128x128_S10000x128_1_0_0_1_n_n.lhsIdx (ix2 k q) ((contrEquiv1 dot_S10000x128_S128x128_S10000x128_1_0_0_1_n_n 128 rfl rfl).symm j) = ix2 k j := funext fun a => Fin.ext (by
    match a with
    | ⟨0, _⟩ => exact lhs1_0 _ _
    | ⟨1, _⟩ => exact (lhs1_1 _ _).trans hj)
  have er : dot_S10000x128_S128x128_S10000x128_1_0_0_1_n_n.rhsIdx (ix2 k q) ((contrEquiv1 dot_S10000x128_S128x128_S10000x128_1_0_0_1_n_n 128 rfl rfl).symm j) = ix2 j q := funext fun a => Fin.ext (by
    match a with
    | ⟨0, _⟩ => exact (rhs1_0 _ _).trans hj
    | ⟨1, _⟩ => exact rhs1_1 _ _)
  rw [el, er]

/-- The first stored value at (k, q) is the product x · W there: ∑ j, x (k, j) * W (j, q). -/
theorem pay1_at (v13 : Vec Ideal S10000x128 .f32) (v14 : Vec Ideal S128x128 .f32) (k : Fin 10000) (q : Fin 128) :
    Gen.k0_pay1 (F := Ideal) v13 v14 (ix2 k q) = ∑ j : Fin 128, v13 (ix2 k j) * v14 (ix2 j q) := by
  show shapeCast S10000x128 (FloatOps.matmul dot_S10000x128_S128x128_S10000x128_1_0_0_1_n_n none v13 v14 (constant (F := Ideal) S10000x128 .f32 0x00000000#32))
    shapeCasts_S10000x128_S10000x128 (ix2 k q) = _
  rw [shapeCast_self, mm1_at]

/-! ## The second product's operand indices -/

/-- At output (i₀, i₁) and contraction coordinate q, the left operand's row is i₀ … -/
theorem lhs2_0 (i : S224x128.Idx) (q : dot_S224x10000_S10000x128_S224x128_1_0_0_1_n_n.contr.Idx) :
    (dot_S224x10000_S10000x128_S224x128_1_0_0_1_n_n.lhsIdx i q 0).val = (i 0).val := by
  unfold DotDims.lhsIdx
  rw [dif_neg (show ¬(0 : Fin S224x10000.rank) ∈ dot_S224x10000_S10000x128_S224x128_1_0_0_1_n_n.lhsBatch by decide), dif_pos (show (0 : Fin S224x10000.rank) ∈ dot_S224x10000_S10000x128_S224x128_1_0_0_1_n_n.lhsNonContracting by decide)]
  rfl
/-- … its column is q … -/
theorem lhs2_1 (i : S224x128.Idx) (q : dot_S224x10000_S10000x128_S224x128_1_0_0_1_n_n.contr.Idx) :
    (dot_S224x10000_S10000x128_S224x128_1_0_0_1_n_n.lhsIdx i q 1).val = (q ⟨0, by decide⟩).val :=
  dot_S224x10000_S10000x128_S224x128_1_0_0_1_n_n.lhsIdx_val_of_single rfl i q
/-- … the right operand's row is q … -/
theorem rhs2_0 (i : S224x128.Idx) (q : dot_S224x10000_S10000x128_S224x128_1_0_0_1_n_n.contr.Idx) :
    (dot_S224x10000_S10000x128_S224x128_1_0_0_1_n_n.rhsIdx i q 0).val = (q ⟨0, by decide⟩).val :=
  dot_S224x10000_S10000x128_S224x128_1_0_0_1_n_n.rhsIdx_val_of_single rfl i q
/-- … and its column is i₁. -/
theorem rhs2_1 (i : S224x128.Idx) (q : dot_S224x10000_S10000x128_S224x128_1_0_0_1_n_n.contr.Idx) :
    (dot_S224x10000_S10000x128_S224x128_1_0_0_1_n_n.rhsIdx i q 1).val = (i 1).val := by
  unfold DotDims.rhsIdx
  rw [dif_neg (show ¬(1 : Fin S10000x128.rank) ∈ dot_S224x10000_S10000x128_S224x128_1_0_0_1_n_n.rhsBatch by decide), dif_pos (show (1 : Fin S10000x128.rank) ∈ dot_S224x10000_S10000x128_S224x128_1_0_0_1_n_n.rhsNonContracting by decide)]
  rfl

/-- The second product into a zero accumulator, at (p, q): ∑ k, A (p, k) * XW (k, q). -/
theorem mm2_at (v3 : FVec Ideal S224x10000 .f32) (v4 : FVec Ideal S10000x128 .f32) (p : Fin 224) (q : Fin 128) :
    FloatOps.matmul dot_S224x10000_S10000x128_S224x128_1_0_0_1_n_n none v3 v4 (constant (F := Ideal) S224x128 .f32 0x00000000#32) (ix2 p q)
      = ∑ k : Fin 10000, v3 (ix2 p k) * v4 (ix2 k q) := by
  rw [Ideal.matmul_constant_zero_apply, ← Equiv.sum_comp (contrEquiv1 dot_S224x10000_S10000x128_S224x128_1_0_0_1_n_n 10000 rfl rfl).symm]
  refine Finset.sum_congr rfl fun k _ => ?_
  have hk := contrEquiv1_symm_val dot_S224x10000_S10000x128_S224x128_1_0_0_1_n_n 10000 rfl rfl k
  have el : dot_S224x10000_S10000x128_S224x128_1_0_0_1_n_n.lhsIdx (ix2 p q) ((contrEquiv1 dot_S224x10000_S10000x128_S224x128_1_0_0_1_n_n 10000 rfl rfl).symm k) = ix2 p k := funext fun a => Fin.ext (by
    match a with
    | ⟨0, _⟩ => exact lhs2_0 _ _
    | ⟨1, _⟩ => exact (lhs2_1 _ _).trans hk)
  have er : dot_S224x10000_S10000x128_S224x128_1_0_0_1_n_n.rhsIdx (ix2 p q) ((contrEquiv1 dot_S224x10000_S10000x128_S224x128_1_0_0_1_n_n 10000 rfl rfl).symm k) = ix2 k q := funext fun a => Fin.ext (by
    match a with
    | ⟨0, _⟩ => exact (rhs2_0 _ _).trans hk
    | ⟨1, _⟩ => exact rhs2_1 _ _)
  rw [el, er]

/-- The bias row, cast to its own shape and broadcast over 224 rows, reads at (p, q) the row's entry q. -/
theorem bias_at (v6 : FVec Ideal S1x128 .f32) (p : Fin 224) (q : Fin 128) :
    broadcastTo S224x128 (shapeCast S1x128 v6 shapeCasts_S1x128_S1x128) broadcasts_S1x128_S224x128 (ix2 p q)
      = v6 (ix2 (0 : Fin 1) q) := by
  rw [shapeCast_self]
  exact broadcastTo_1b_ab_apply v6 broadcasts_S1x128_S224x128 p q

/-- The second stored value at (p, q) is the positive part of the aggregated product plus the bias:
    max (∑ k, A (p, k) * XW (k, q) + bias (0, q)) 0. The kernel takes the maximum with the zero splat in the second
    place, which is the form stated. -/
theorem pay2_at (v3 : Vec Ideal S224x10000 .f32) (v4 : Vec Ideal S10000x128 .f32) (v6 : Vec Ideal S1x128 .f32)
    (p : Fin 224) (q : Fin 128) :
    Gen.k0_pay2 (F := Ideal) v3 v4 v6 (ix2 p q)
      = max (∑ k : Fin 10000, v3 (ix2 p k) * v4 (ix2 k q) + v6 (ix2 0 q)) 0 := by
  show max (FloatOps.matmul dot_S224x10000_S10000x128_S224x128_1_0_0_1_n_n none v3 v4 (constant (F := Ideal) S224x128 .f32 0x00000000#32) (ix2 p q)
      + broadcastTo S224x128 (shapeCast S1x128 v6 shapeCasts_S1x128_S1x128) broadcasts_S1x128_S224x128 (ix2 p q))
      (Ideal.ofBits .f32 0x00000000#32) = _
  rw [mm2_at, bias_at, Ideal.ofBits_zero_f32]

end Cert.KernelIdeal.PayAt

end
-- ==== Proof.IdealValue.lean ====
/-
  What the idealized layer's result array holds after the run, as one function of the four arguments.

  Over the extended reals the body's two payloads are sums: the scratch holds  (x · W)(k, q) = ∑ j, x(k, j) · W(j, q),
  and the result block of point `t` holds at its row `p` and lane `q`
      max (∑ k, A(p, k) · (x · W)(k, q) + bias(q), 0)
  where `A` is the adjacency buffer. Row `p` of the buffer, when it lies inside the matrix, is row `224·t + p` of the
  adjacency matrix; so on the rows the write-back moves, the block is rows `224·t …` of the layer's function `G` of
  the arguments — whatever the buffer holds past the matrix's end (which is the row-locality the exact body
  obligation asks for). The written-back blocks cover the array, so the array ends at `G`.
-/
import proofs.«121163_g85813446574119_cont_sun_m_903_15_alg».proof.Proof.BodyFrameI
import proofs.«121163_g85813446574119_cont_sun_m_903_15_alg».proof.Proof.RefAt
import proofs.«121163_g85813446574119_cont_sun_m_903_15_alg».proof.Proof.PayAt
import Idealize.ShloMosaic.Lib.ValueIdx
import Idealize.ShloMosaic.Lib.Pipeline.Value
import Idealize.ShloMosaic.Lib.StableHlo.Run

set_option maxRecDepth 16384

noncomputable section

namespace Cert.KernelIdeal.LayerValue

open Cert.KernelIdeal Cert.KernelIdeal.Gen Cert.KernelIdeal.Body
open Idealize.ShloMosaic Idealize.ShloMosaic.TcCoe Idealize.SL.Sem Idealize.ShloMosaic.ValueIdx
open Idealize.ShloMosaic.Pipeline (Dat Cfg Window)

variable (m : (ℓ : Loc nD τ sig) → Buf (Elt Ideal) ℓ)

/-- The four argument arrays as the program is launched with them, typed as arrays of extended reals. -/
abbrev xA (c : Dev nD) : (⟨S10000x128, .f32⟩ : BufTy).Contents (Elt Ideal) := m ((c : Thread nD τ).loc main_arg0)
abbrev adjA (c : Dev nD) : (⟨S10000x10000, .f32⟩ : BufTy).Contents (Elt Ideal) := m ((c : Thread nD τ).loc main_arg1)
abbrev wA (c : Dev nD) : (⟨S128x128, .f32⟩ : BufTy).Contents (Elt Ideal) := m ((c : Thread nD τ).loc main_arg2)
abbrev bA (c : Dev nD) : (⟨S128, .f32⟩ : BufTy).Contents (Elt Ideal) := m ((c : Thread nD τ).loc main_arg3)

/-- The layer's function of them. -/
def Gm (c : Dev nD) : (⟨S10000x128, .f32⟩ : BufTy).Contents (Elt Ideal) :=
  Cert.ReferenceIdeal.RefAt.G (xA m c) (adjA m c) (wA m c) (bA m c)

/-- Its element (i, q): the positive part of  ∑ k, adj(i, k) · (∑ j, x(k, j) · W(j, q)) + bias(q). -/
theorem Gm_at (c : Dev nD) (i : Fin 10000) (q : Fin 128) :
    Gm m c (ix2 i q)
      = max (∑ k : Fin 10000, adjA m c (ix2 i k) * (∑ j : Fin 128, xA m c (ix2 k j) * wA m c (ix2 j q)) + bA m c (ix1 q)) 0 := rfl

/-! ## The printed index maps, decided over the 45 points -/

theorem idx_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_2.xsize (grid0.coords t) (0 : Fin 2) = min 224 (10000 - 224 * t.val)
    ∧ win0_2.xsize (grid0.coords t) (1 : Fin 2) = 10000
    ∧ win0_4.xsize (grid0.coords t) (0 : Fin 2) = min 224 (10000 - 224 * t.val)
    ∧ win0_4.xsize (grid0.coords t) (1 : Fin 2) = 128 :=
  (by decide +kernel : ∀ t : Fin grid0.N, _)

/-! ## The staged arrays at an index -/

/-- The features' one block is the features' array. -/
theorem x_at (c : Dev nD) (t : Fin cfg0.N) (k : Fin 10000) (j : Fin 128) :
    iblk m c 0 t (ix2 k j) = xA m c (ix2 k j) := by
  obtain ⟨e0, e1, -⟩ := idx_facts t
  show V m c main_arg0 (((cfg0.win 0).blk t).view.emb (ix2 k j)) = _
  rw [V_main_arg0]
  refine congrArg _ (funext fun a => Fin.ext ?_)
  match a with
  | ⟨0, _⟩ => show win0_0.index t (0 : Fin 2) * 10000 + 1 * k.val = k.val; omega
  | ⟨1, _⟩ => show win0_0.index t (1 : Fin 2) * 128 + 1 * j.val = j.val; omega

/-- The weight's one block is the weight's array. -/
theorem w_at (c : Dev nD) (t : Fin cfg0.N) (j : Fin 128) (q : Fin 128) :
    iblk m c 1 t (ix2 j q) = wA m c (ix2 j q) := by
  obtain ⟨-, -, e0, e1, -⟩ := idx_facts t
  show V m c main_arg2 (((cfg0.win 1).blk t).view.emb (ix2 j q)) = _
  rw [V_main_arg2]
  refine congrArg _ (funext fun a => Fin.ext ?_)
  match a with
  | ⟨0, _⟩ => show win0_1.index t (0 : Fin 2) * 128 + 1 * j.val = j.val; omega
  | ⟨1, _⟩ => show win0_1.index t (1 : Fin 2) * 128 + 1 * q.val = q.val; omega

/-- The bias row the pipeline stages is the bias vector, reshaped before the region. -/
theorem bias_at (c : Dev nD) (t : Fin cfg0.N) (q : Fin 128) :
    iblk m c 3 t (ix2 (0 : Fin 1) q) = bA m c (ix1 q) := by
  obtain ⟨-, -, -, -, -, -, e0, e1, -⟩ := idx_facts t
  have e : (V m c main_call0_v0 : S1x128.Idx → EReal)
      = shapeCast S1x128 (m ((c : Thread nD τ).loc main_arg3)) shapeCasts_S128_S1x128 := by
    dsimp only [Gen.V, Gen.hostOps0]; after_results; rfl
  show V m c main_call0_v0 (((cfg0.win 3).blk t).view.emb (ix2 (0 : Fin 1) q)) = _
  rw [e]
  refine (shapeCast_apply _ _ _ (ix1 q) ?_)
  rw [Shape.rowMajor_val_one, Shape.rowMajor_val_two]
  show q.val = (win0_3.index t (0 : Fin 2) * 1 + 1 * 0) * 128 + (win0_3.index t (1 : Fin 2) * 128 + 1 * q.val)
  omega

/-- A row of the adjacency buffer that the fetch moves is a row of the adjacency matrix, whatever filled the
    buffer past the matrix's end. -/
theorem adj_at (c : Dev nD) (t : Fin cfg0.N) (d2 : S224x10000.Idx → Elt Ideal .f32) (p : Fin 224)
    (hp : p.val < win0_2.xsize (grid0.coords t) (0 : Fin 2)) (k : Fin 10000) (h : 224 * t.val + p.val < 10000) :
    win0_2.fill (grid0.coords t) d2 (iblk m c 2 t) (ix2 p k)
      = adjA m c (ix2 (⟨224 * t.val + p.val, h⟩ : Fin 10000) k) := by
  obtain ⟨-, -, -, -, e0, e1, -, -, -, -, x0, x1, -⟩ := idx_facts t
  have hm : win0_2.moved (grid0.coords t) (ix2 p k) = true := (win0_2.moved_iff _ _).mpr fun a => by
    match a with
    | ⟨0, _⟩ => exact hp
    | ⟨1, _⟩ => have := k.isLt; show k.val < win0_2.xsize (grid0.coords t) (1 : Fin 2); omega
  unfold Window.fill
  rw [dif_pos hm]
  show V m c main_arg1 (((cfg0.win 2).blk t).view.emb _) = _
  rw [V_main_arg1]
  refine congrArg _ (funext fun a => Fin.ext ?_)
  match a with
  | ⟨0, _⟩ => show win0_2.index t (0 : Fin 2) * 224 + 1 * p.val = 224 * t.val + p.val; omega
  | ⟨1, _⟩ => show win0_2.index t (1 : Fin 2) * 10000 + 1 * k.val = k.val; omega

/-- The scratch after the first point, at an index: (x · W)(k, q). -/
theorem support_at (c : Dev nD) (k : Fin 10000) (q : Fin 128) :
    support m c (ix2 k q) = ∑ j : Fin 128, xA m c (ix2 k j) * wA m c (ix2 j q) := by
  unfold support
  rw [Cert.KernelIdeal.PayAt.pay1_at]
  exact Finset.sum_congr rfl fun j _ => by rw [x_at, w_at]

/-! ## The result block at an index -/

/-- On a row the write-back moves, the result block — of the adjacency buffer as found, `d2` past the matrix's
    end — is the layer's function at row `224·t + p`. -/
theorem out_at (c : Dev nD) (t : Fin cfg0.N) (d2 : S224x10000.Idx → Elt Ideal .f32) (p : Fin 224) (q : Fin 128)
    (hp : p.val < win0_4.xsize (grid0.coords t) (0 : Fin 2)) (h : 224 * t.val + p.val < 10000) :
    outFound m c t d2 (ix2 p q) = Gm m c (ix2 (⟨224 * t.val + p.val, h⟩ : Fin 10000) q) := by
  obtain ⟨-, -, -, -, -, -, -, -, -, -, x0, -, x4, -⟩ := idx_facts t
  unfold outFound
  rw [Cert.KernelIdeal.PayAt.pay2_at, Gm_at, bias_at]
  congr 2
  exact Finset.sum_congr rfl fun k _ => by rw [adj_at m c t d2 p (by rw [x0, ← x4]; exact hp) k h, support_at]

/-- The data's result block is the block found with zeros past the matrix's end. -/
theorem outBlk_eq (c : Dev nD) (t : Fin cfg0.N) :
    outBlk m c t = outFound m c t (fun _ => Scalar.ofBits (F := Ideal) .f32 0#32) := rfl

/-- What the write-back at point `t` would move of the result block, whatever the adjacency buffer held past the
    matrix's end: rows `224·t …` of the layer's function, read through the block's part inside the array. -/
theorem cut_out (c : Dev nD) (t : Fin cfg0.N) (d2 : S224x10000.Idx → Elt Ideal .f32) :
    win0_4.cut (grid0.coords t) (outFound m c t d2) = ((cfg0.win 4).blk t).view.read (Elt Ideal) (Gm m c) := by
  obtain ⟨-, -, -, -, -, -, -, -, e0, e1, -, -, x4, x5⟩ := idx_facts t
  funext y
  have hp : (y 0).val < win0_4.xsize (grid0.coords t) (0 : Fin 2) := (y 0).isLt
  have hq' : (y 1).val < win0_4.xsize (grid0.coords t) (1 : Fin 2) := (y 1).isLt
  have hq : (y 1).val < 128 := by omega
  have hp224 : (y 0).val < 224 := by omega
  have hrow : 224 * t.val + (y 0).val < 10000 := by omega
  have hx : win0_4.xinj (grid0.coords t) y = ix2 (⟨(y 0).val, hp224⟩ : Fin 224) (⟨(y 1).val, hq⟩ : Fin 128) :=
    funext fun a => Fin.ext (by match a with | ⟨0, _⟩ => rfl | ⟨1, _⟩ => rfl)
  have he : ((cfg0.win 4).blk t).view.emb y = ix2 (⟨224 * t.val + (y 0).val, hrow⟩ : Fin 10000) (⟨(y 1).val, hq⟩ : Fin 128) :=
    funext fun a => Fin.ext (by
      match a with
      | ⟨0, _⟩ => show win0_4.index t (0 : Fin 2) * 224 + 1 * (y 0).val = 224 * t.val + (y 0).val; omega
      | ⟨1, _⟩ => show win0_4.index t (1 : Fin 2) * 128 + 1 * (y 1).val = (y 1).val; omega)
  show outFound m c t d2 (win0_4.xinj (grid0.coords t) y) = Gm m c (((cfg0.win 4).blk t).view.emb y)
  rw [hx, he]
  exact out_at m c t d2 _ _ hp hrow

/-- WHAT POINT `t` WRITES BACK is its block of the layer's function. -/
theorem flushed_eq (c : Dev nD) (t : Fin cfg0.N) :
    (dats m 0 c).flushed 4 t = ((cfg0.win 4).blk t).view.read (Elt Ideal) (Gm m c) := by
  show (cfg0.win 4).cut (grid0.coords t) ((dats m 0 c).after 4 t) = _
  rw [after0_4, outBlk_eq]
  exact cut_out m c t _

/-- The rows the write-back moves do not depend on the adjacency buffer's rows past the matrix's end. -/
theorem row_local (c : Dev nD) : RowLocal m c := fun t d2 => by
  rw [outBlk_eq, cut_out, cut_out]

end Cert.KernelIdeal.LayerValue

end
-- ==== Proof.Cover.lean ====
/-
  The result's blocks cover the result array.

  The result, an array of 10000 rows by 128 lanes, is written back in 45 blocks of 224 rows by 128 lanes, block `t`
  starting at row 224 · t; since 45 · 224 = 10080 exceeds 10000, the last block is cut at the array's end to
  10000 − 44 · 224 = 144 rows. So block `t` holds the rows from 224 · t up to 224 · t + min 224 (10000 − 224 · t) and
  every lane, and the row `r` of an index lies in block `r / 224`: every index of the array is in some block.
-/
import proofs.«121163_g85813446574119_cont_sun_m_903_15_alg».proof.Proof.Gen.KernelIdeal.Points
import Idealize.ShloMosaic.Lib.Pipeline.Value

noncomputable section

namespace Cert.KernelIdeal.Cover

open Cert.KernelIdeal Cert.KernelIdeal.Gen Idealize.ShloMosaic Idealize.ShloMosaic.TcCoe
open Idealize.SL Idealize.SL.Sem

variable {F : FTy → Type} [FloatOps F]

/-- The grid has 45 points. -/
theorem N45 : grid0.N = 45 := by decide

/-- The result window's block index and cut sizes at each of the 45 points: block `t` is block row `t`, block lane 0;
    it has min 224 (10000 − 224 · t) rows inside the array and all 128 lanes. -/
theorem idx4 : ∀ t : Fin cfg0.N, win0_4.index t (0 : Fin 2) = t.val ∧ win0_4.index t (1 : Fin 2) = 0
    ∧ win0_4.xsize (grid0.coords t) (0 : Fin 2) = min 224 (10000 - 224 * t.val)
    ∧ win0_4.xsize (grid0.coords t) (1 : Fin 2) = 128 :=
  (by decide +kernel : ∀ t : Fin grid0.N, _)

/-- An index of the array is in point `t`'s block iff each coordinate is in the block's range on its axis: from the
    block's offset up to the offset plus the block's size as cut at the array's end. -/
theorem mem_blk4 (t : Fin cfg0.N) (i : S10000x128.Idx) :
    i ∈ ((cfg0.win 4).blk t).view.set ↔ ∀ a : Fin 2, win0_4.index t a * S224x128.size a ≤ (i a).val
      ∧ (i a).val < win0_4.index t a * S224x128.size a + win0_4.xsize (grid0.coords t) a := by
  show i ∈ ((View.whole main_v0).slice (win0_4.rect t)).set ↔ _
  rw [View.set_slice_whole, Rect.mem_set_unit]
  exact Iff.rfl

/-- Every index of the array is in the block of a point that writes back: the point `r / 224` for the row `r`. -/
theorem cover4 : ∀ i : S10000x128.Idx, ∃ t : Fin cfg0.N, (cfg0.win 4).flush t = true ∧ i ∈ ((cfg0.win 4).blk t).view.set := by
  intro i
  have h0 : (i 0).val < 10000 := (i 0).isLt
  have h1 : (i 1).val < 128 := (i 1).isLt
  obtain ⟨t, ht⟩ : ∃ t : Fin cfg0.N, t.val = (i 0).val / 224 :=
    ⟨⟨(i 0).val / 224, by show (i 0).val / 224 < grid0.N; rw [N45]; omega⟩, rfl⟩
  refine ⟨t, flush0_4 t, ?_⟩
  rw [mem_blk4]
  obtain ⟨e0, e1, e2, e3⟩ := idx4 t
  intro a
  match a with
  | ⟨0, _⟩ =>
    show win0_4.index t (0 : Fin 2) * 224 ≤ (i 0).val
      ∧ (i 0).val < win0_4.index t (0 : Fin 2) * 224 + win0_4.xsize (grid0.coords t) (0 : Fin 2)
    rw [e0, e2, ht]
    omega
  | ⟨1, _⟩ =>
    show win0_4.index t (1 : Fin 2) * 128 ≤ (i 1).val
      ∧ (i 1).val < win0_4.index t (1 : Fin 2) * 128 + win0_4.xsize (grid0.coords t) (1 : Fin 2)
    rw [e1, e3]
    omega

end Cert.KernelIdeal.Cover

end
-- ==== Proof.IdealRun.lean ====
/-
  The idealized layer's run, with its result named: the written-back blocks cover the result array (45 blocks of
  224 rows, the last cut to the 144 rows inside), each is its rows of the layer's function of the arguments, so the
  array ends at that function; the arguments end as they were found.
-/
import proofs.«121163_g85813446574119_cont_sun_m_903_15_alg».proof.Proof.IdealValue
import proofs.«121163_g85813446574119_cont_sun_m_903_15_alg».proof.Proof.Cover

set_option maxRecDepth 16384

noncomputable section

namespace Cert.KernelIdeal.LayerValue

open Cert.KernelIdeal Cert.KernelIdeal.Gen Cert.KernelIdeal.Body
open Idealize.ShloMosaic Idealize.ShloMosaic.TcCoe Idealize.SL.Sem Idealize.ShloMosaic.ValueIdx
open Idealize.ShloMosaic.Pipeline (Dat Cfg Window)

variable (m : (ℓ : Loc nD τ sig) → Buf (Elt Ideal) ℓ) (ρ : Dev nD → PrngReg)

/-- The result array after the last write-back is the layer's function of the arguments. -/
theorem final (c : Dev nD) : (dats m 0 c).arrAt 4 cfg0.N = Gm m c :=
  (dats m 0 c).arrAt_eq_of_cover 4 (Gm m c) (fun t _ => flushed_eq m c t) Cert.KernelIdeal.Cover.cover4

/-- Every weakly fair execution of the idealized program terminates, faults nowhere, and ends with the result
    array at the layer's function of the arguments and the arguments unchanged. -/
theorem run : θ_run defs (onTc (τ := τ) (main (F := Ideal))) ⟨m, fun _ => 0, ρ⟩ (fun r => ∀ c : Dev nD,
      r.2.mem ((c.tc : Thread nD τ).loc main_v0) = Gm m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).1 4).trans (final m c),
      ((h c).1 0).trans (((dats m 0 c).arrAt_in 0 rfl _).trans ((A_eq m c 0).trans (V_main_arg0 m c))),
      ((h c).1 2).trans (((dats m 0 c).arrAt_in 2 rfl _).trans ((A_eq m c 2).trans (V_main_arg1 m c))),
      ((h c).1 1).trans (((dats m 0 c).arrAt_in 1 rfl _).trans ((A_eq m c 1).trans (V_main_arg2 m c))),
      ((h c).2 main_arg3 (Pipeline.mem_restRefs_of main_arg3 (by decide) (by decide))).trans (V_main_arg3 m c)⟩)
    (run_main m ρ (row_local m))

end Cert.KernelIdeal.LayerValue

end
-- ==== Proof.lean ====
/-
  A graph-convolution layer,  out = max (adj · (x · W) + bias, 0),  as a gridded kernel against its plain reference.

  The kernel walks the adjacency matrix in 45 blocks of 224 rows (the last one reaching past the matrix's end, its
  transfers cut there). At the first block it computes the product `x · W` into a scratch that lives across the grid;
  at every block it multiplies the block by the scratch, adds the bias row and takes the positive part. The reference
  computes the same two products on whole arrays.

  The three frames: the word-level kernel and its idealization run to the end, fault nowhere and leave their four
  arguments as found (the body's two triples, the invariant "the scratch holds x · W from the second block on", and
  the library's frame theorem; nothing is said there of what the result buffer holds); the reference's is its run
  with the result dropped. The idealization rewrote nothing, so it is sanctioned vacuously. Over the extended reals
  both programs end with the result array at ONE function of the arguments — element (i, q) is the positive part of
  ∑ k, adj(i, k) · (∑ j, x(k, j) · W(j, q)) + bias(q): for the kernel, block by block on the rows each write-back
  moves; for the reference, stage by stage. No law beyond the two sides' unfolding is needed: the two programs group
  the sums alike, so the inputs' finiteness is never used.
-/
import proofs.«121163_g85813446574119_cont_sun_m_903_15_alg».proof.Defs
import proofs.«121163_g85813446574119_cont_sun_m_903_15_alg».proof.Proof.Gen.Kernel
import proofs.«121163_g85813446574119_cont_sun_m_903_15_alg».proof.Proof.Gen.Kernel.Skeleton
import proofs.«121163_g85813446574119_cont_sun_m_903_15_alg».proof.Proof.Gen.Kernel.Launch
import proofs.«121163_g85813446574119_cont_sun_m_903_15_alg».proof.Proof.Gen.Kernel.Points
import proofs.«121163_g85813446574119_cont_sun_m_903_15_alg».proof.Proof.Gen.Kernel.Frame
import proofs.«121163_g85813446574119_cont_sun_m_903_15_alg».proof.Proof.Gen.KernelIdeal
import proofs.«121163_g85813446574119_cont_sun_m_903_15_alg».proof.Proof.Gen.KernelIdeal.Skeleton
import proofs.«121163_g85813446574119_cont_sun_m_903_15_alg».proof.Proof.Gen.KernelIdeal.Launch
import proofs.«121163_g85813446574119_cont_sun_m_903_15_alg».proof.Proof.Gen.KernelIdeal.Points
import proofs.«121163_g85813446574119_cont_sun_m_903_15_alg».proof.Proof.Gen.KernelIdeal.Frame
import proofs.«121163_g85813446574119_cont_sun_m_903_15_alg».proof.Proof.Gen.ReferenceIdeal
import proofs.«121163_g85813446574119_cont_sun_m_903_15_alg».proof.Proof.Gen.Pre_finite_inputs
import proofs.«121163_g85813446574119_cont_sun_m_903_15_alg».proof.Proof.Gen.ReferenceIdeal.Run
import proofs.«121163_g85813446574119_cont_sun_m_903_15_alg».proof.Proof.Gen.ReferenceIdeal.Read
import proofs.«121163_g85813446574119_cont_sun_m_903_15_alg».proof.Proof.BodyFrameK
import proofs.«121163_g85813446574119_cont_sun_m_903_15_alg».proof.Proof.BodyFrameI
import proofs.«121163_g85813446574119_cont_sun_m_903_15_alg».proof.Proof.IdealRun
import proofs.«121163_g85813446574119_cont_sun_m_903_15_alg».proof.Proof.RefAt
import Idealize.ShloMosaic.Adequacy
import Idealize.ShloMosaic.Init

noncomputable section

namespace Cert.Proof

open Idealize.ShloMosaic Idealize.SL.Sem

/-- The word-level kernel runs to the end and leaves its arguments alone. -/
theorem frame_k : Cert.frame_Kernel := fun m ρ _ => Cert.Kernel.Body.frame m ρ

/-- So does its idealization. -/
theorem frame_ki : Cert.frame_KernelIdeal := fun m ρ _ => Cert.KernelIdeal.Body.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Over the extended reals the kernel's result array and the reference's are one function of the arguments. -/
theorem algebraic : Cert.algebraic_KernelIdeal_ReferenceIdeal := by
  intro m ρ m' ρ' _ hagree
  refine ⟨fun c => Cert.KernelIdeal.LayerValue.Gm m c, Cert.KernelIdeal.LayerValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  exact Cert.ReferenceIdeal.RefAt.ref_run_eq _ _ _ _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
